-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x256 : Shape := ⟨2, ![12288, 256]⟩
abbrev S2x393216 : Shape := ⟨2, ![2, 393216]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S12288x256 : S_.BroadcastsInDim S12288x256 (![] : Fin 0 → Fin S12288x256.rank)
  reducesTo_S12288x256_S_d0_1 : S12288x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S12288x256 .f32) (main_arg1 : IVec S2x393216 32) (main_arg2 : FVec F S256x256 .f32) (main_arg3 : FVec F S256 .f32) (main_arg4 : FVec F S256x64 .f32) (main_arg5 : FVec F S64 .f32) : IVec S_ 1 :=
  let main_v0 : FVec F S12288x256 .f32 := Host.absf main_arg0
  let main_cst : FVec F S_ .f32 := constant S_ .f32 0x7F800000#32
  let main_v1 : FVec F S12288x256 .f32 := broadcastInDim S12288x256 ![] bcast_S_S12288x256 main_cst
  let main_v2 : IVec S12288x256 1 := cmpf .olt main_v0 main_v1
  let main_c : IVec S_ 1 := constantI S_ 1 1#1
  let main_v3 : IVec S_ 1 := (fun x v => Host.reduce IntOp.andi x v reducesTo_S12288x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S12288x256 : Shape := ⟨2, ![12288, 256]⟩
abbrev S2x393216 : Shape := ⟨2, ![2, 393216]⟩
abbrev S256x256 : Shape := ⟨2, ![256, 256]⟩
abbrev S256 : Shape := ⟨1, ![256]⟩
abbrev S256x64 : Shape := ⟨2, ![256, 64]⟩
abbrev S64 : Shape := ⟨1, ![64]⟩
abbrev S12288 : Shape := ⟨1, ![12288]⟩
abbrev S1x393216 : Shape := ⟨2, ![1, 393216]⟩
abbrev S393216 : Shape := ⟨1, ![393216]⟩
abbrev S405504 : Shape := ⟨1, ![405504]⟩
abbrev S_ : Shape := ⟨0, ![]⟩
abbrev S405504x1 : Shape := ⟨2, ![405504, 1]⟩
abbrev S405504x256 : Shape := ⟨2, ![405504, 256]⟩
abbrev S1x256 : Shape := ⟨2, ![1, 256]⟩
abbrev S12288x64 : Shape := ⟨2, ![12288, 64]⟩
abbrev S405504x64 : Shape := ⟨2, ![405504, 64]⟩
abbrev S1x64 : Shape := ⟨2, ![1, 64]⟩
abbrev S12288x12288 : Shape := ⟨2, ![12288, 12288]⟩
abbrev S1024x64 : Shape := ⟨2, ![1024, 64]⟩
abbrev S1024x1024 : Shape := ⟨2, ![1024, 1024]⟩

abbrev nBuf : Space → Nat
  | .hbm => 123
  | .vmem => 6
  | .smem => 0
  | _ => 0

abbrev bufTy : (tb : Table) → Fin (tcTables nBuf tb) → BufTy
  | .hbm, ⟨0, _⟩ => ⟨S12288x256, .f32⟩
  | .hbm, ⟨1, _⟩ => ⟨S2x393216, .i32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S12288, .i32⟩
  | .hbm, ⟨7, _⟩ => ⟨S1x393216, .i32⟩
  | .hbm, ⟨8, _⟩ => ⟨S393216, .i32⟩
  | .hbm, ⟨9, _⟩ => ⟨S405504, .i32⟩
  | .hbm, ⟨10, _⟩ => ⟨S1x393216, .i32⟩
  | .hbm, ⟨11, _⟩ => ⟨S393216, .i32⟩
  | .hbm, ⟨12, _⟩ => ⟨S405504, .i32⟩
  | .hbm, ⟨13, _⟩ => ⟨S_, .f32⟩
  | .hbm, ⟨14, _⟩ => ⟨S405504, .f32⟩
  | .hbm, ⟨15, _⟩ => ⟨S_, .f32⟩
  | .hbm, ⟨16, _⟩ => ⟨S12288, .f32⟩
  | .hbm, ⟨17, _⟩ => ⟨S405504x1, .i32⟩
  | .hbm, ⟨18, _⟩ => ⟨S12288, .f32⟩
  | .hbm, ⟨19, _⟩ => ⟨S_, .f32⟩
  | .hbm, ⟨20, _⟩ => ⟨S12288, .f32⟩
  | .hbm, ⟨21, _⟩ => ⟨S12288, .i1⟩
  | .hbm, ⟨22, _⟩ => ⟨S12288, .f32⟩
  | .hbm, ⟨23, _⟩ => ⟨S_, .f32⟩
  | .hbm, ⟨24, _⟩ => ⟨S_, .f32⟩
  | .hbm, ⟨25, _⟩ => ⟨S12288, .f32⟩
  | .hbm, ⟨26, _⟩ => ⟨S12288, .f32⟩
  | .hbm, ⟨27, _⟩ => ⟨S_, .i32⟩
  | .hbm, ⟨28, _⟩ => ⟨S405504, .i32⟩
  | .hbm, ⟨29, _⟩ => ⟨S405504, .i1⟩
  | .hbm, ⟨30, _⟩ => ⟨S_, .i32⟩
  | .hbm, ⟨31, _⟩ => ⟨S405504, .i32⟩
  | .hbm, ⟨32, _⟩ => ⟨S405504, .i32⟩
  | .hbm, ⟨33, _⟩ => ⟨S405504, .i32⟩
  | .hbm, ⟨34, _⟩ => ⟨S405504x1, .i32⟩
  | .hbm, ⟨35, _⟩ => ⟨S405504, .f32⟩
  | .hbm, ⟨36, _⟩ => ⟨S_, .i32⟩
  | .hbm, ⟨37, _⟩ => ⟨S405504, .i32⟩
  | .hbm, ⟨38, _⟩ => ⟨S405504, .i1⟩
  | .hbm, ⟨39, _⟩ => ⟨S_, .i32⟩
  | .hbm, ⟨40, _⟩ => ⟨S405504, .i32⟩
  | .hbm, ⟨41, _⟩ => ⟨S405504, .i32⟩
  | .hbm, ⟨42, _⟩ => ⟨S405504, .i32⟩
  | .hbm, ⟨43, _⟩ => ⟨S405504x1, .i32⟩
  | .hbm, ⟨44, _⟩ => ⟨S405504, .f32⟩
  | .hbm, ⟨45, _⟩ => ⟨S405504, .f32⟩
  | .hbm, ⟨46, _⟩ => ⟨S12288x256, .f32⟩
  | .hbm, ⟨47, _⟩ => ⟨S_, .i32⟩
  | .hbm, ⟨48, _⟩ => ⟨S405504, .i32⟩
  | .hbm, ⟨49, _⟩ => ⟨S405504, .i1⟩
  | .hbm, ⟨50, _⟩ => ⟨S_, .i32⟩
  | .hbm, ⟨51, _⟩ => ⟨S405504, .i32⟩
  | .hbm, ⟨52, _⟩ => ⟨S405504, .i32⟩
  | .hbm, ⟨53, _⟩ => ⟨S405504, .i32⟩
  | .hbm, ⟨54, _⟩ => ⟨S405504x1, .i32⟩
  | .hbm, ⟨55, _⟩ => ⟨S405504x256, .f32⟩
  | .hbm, ⟨56, _⟩ => ⟨S405504x1, .f32⟩
  | .hbm, ⟨57, _⟩ => ⟨S405504x256, .f32⟩
  | .hbm, ⟨58, _⟩ => ⟨S405504x256, .f32⟩
  | .hbm, ⟨59, _⟩ => ⟨S_, .f32⟩
  | .hbm, ⟨60, _⟩ => ⟨S12288x256, .f32⟩
  | .hbm, ⟨61, _⟩ => ⟨S405504x1, .i32⟩
  | .hbm, ⟨62, _⟩ => ⟨S12288x256, .f32⟩
  | .hbm, ⟨63, _⟩ => ⟨S1x256, .f32⟩
  | .hbm, ⟨64, _⟩ => ⟨S12288x256, .f32⟩
  | .hbm, ⟨65, _⟩ => ⟨S12288x256, .f32⟩
  | .hbm, ⟨66, _⟩ => ⟨S_, .f32⟩
  | .hbm, ⟨67, _⟩ => ⟨S12288x256, .f32⟩
  | .hbm, ⟨68, _⟩ => ⟨S12288x256, .f32⟩
  | .hbm, ⟨69, _⟩ => ⟨S_, .f32⟩
  | .hbm, ⟨70, _⟩ => ⟨S405504, .f32⟩
  | .hbm, ⟨71, _⟩ => ⟨S_, .f32⟩
  | .hbm, ⟨72, _⟩ => ⟨S12288, .f32⟩
  | .hbm, ⟨73, _⟩ => ⟨S405504x1, .i32⟩
  | .hbm, ⟨74, _⟩ => ⟨S12288, .f32⟩
  | .hbm, ⟨75, _⟩ => ⟨S_, .f32⟩
  | .hbm, ⟨76, _⟩ => ⟨S12288, .f32⟩
  | .hbm, ⟨77, _⟩ => ⟨S12288, .i1⟩
  | .hbm, ⟨78, _⟩ => ⟨S12288, .f32⟩
  | .hbm, ⟨79, _⟩ => ⟨S_, .f32⟩
  | .hbm, ⟨80, _⟩ => ⟨S_, .f32⟩
  | .hbm, ⟨81, _⟩ => ⟨S12288, .f32⟩
  | .hbm, ⟨82, _⟩ => ⟨S12288, .f32⟩
  | .hbm, ⟨83, _⟩ => ⟨S_, .i32⟩
  | .hbm, ⟨84, _⟩ => ⟨S405504, .i32⟩
  | .hbm, ⟨85, _⟩ => ⟨S405504, .i1⟩
  | .hbm, ⟨86, _⟩ => ⟨S_, .i32⟩
  | .hbm, ⟨87, _⟩ => ⟨S405504, .i32⟩
  | .hbm, ⟨88, _⟩ => ⟨S405504, .i32⟩
  | .hbm, ⟨89, _⟩ => ⟨S405504, .i32⟩
  | .hbm, ⟨90, _⟩ => ⟨S405504x1, .i32⟩
  | .hbm, ⟨91, _⟩ => ⟨S405504, .f32⟩
  | .hbm, ⟨92, _⟩ => ⟨S_, .i32⟩
  | .hbm, ⟨93, _⟩ => ⟨S405504, .i32⟩
  | .hbm, ⟨94, _⟩ => ⟨S405504, .i1⟩
  | .hbm, ⟨95, _⟩ => ⟨S_, .i32⟩
  | .hbm, ⟨96, _⟩ => ⟨S405504, .i32⟩
  | .hbm, ⟨97, _⟩ => ⟨S405504, .i32⟩
  | .hbm, ⟨98, _⟩ => ⟨S405504, .i32⟩
  | .hbm, ⟨99, _⟩ => ⟨S405504x1, .i32⟩
  | .hbm, ⟨100, _⟩ => ⟨S405504, .f32⟩
  | .hbm, ⟨101, _⟩ => ⟨S405504, .f32⟩
  | .hbm, ⟨102, _⟩ => ⟨S12288x64, .f32⟩
  | .hbm, ⟨103, _⟩ => ⟨S_, .i32⟩
  | .hbm, ⟨104, _⟩ => ⟨S405504, .i32⟩
  | .hbm, ⟨105, _⟩ => ⟨S405504, .i1⟩
  | .hbm, ⟨106, _⟩ => ⟨S_, .i32⟩
  | .hbm, ⟨107, _⟩ => ⟨S405504, .i32⟩
  | .hbm, ⟨108, _⟩ => ⟨S405504, .i32⟩
  | .hbm, ⟨109, _⟩ => ⟨S405504, .i32⟩
  | .hbm, ⟨110, _⟩ => ⟨S405504x1, .i32⟩
  | .hbm, ⟨111, _⟩ => ⟨S405504x64, .f32⟩
  | .hbm, ⟨112, _⟩ => ⟨S405504x1, .f32⟩
  | .hbm, ⟨113, _⟩ => ⟨S405504x64, .f32⟩
  | .hbm, ⟨114, _⟩ => ⟨S405504x64, .f32⟩
  | .hbm, ⟨115, _⟩ => ⟨S_, .f32⟩
  | .hbm, ⟨116, _⟩ => ⟨S12288x64, .f32⟩
  | .hbm, ⟨117, _⟩ => ⟨S405504x1, .i32⟩
  | .hbm, ⟨118, _⟩ => ⟨S12288x64, .f32⟩
  | .hbm, ⟨119, _⟩ => ⟨S1x64, .f32⟩
  | .hbm, ⟨120, _⟩ => ⟨S12288x64, .f32⟩
  | .hbm, ⟨121, _⟩ => ⟨S12288x64, .f32⟩
  | .hbm, ⟨122, _⟩ => ⟨S12288x12288, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | _, _ => ⟨S12288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x393216_S1x393216_0_0 : S2x393216.Slices ![0, 0] S1x393216
  shapeCasts_S1x393216_S393216 : S1x393216.ShapeCasts S393216
  concatenates_S393216_S12288_S405504_d0 : Shape.Concatenates [S393216, S12288] S405504 0
  slices_S2x393216_S1x393216_1_0 : S2x393216.Slices ![1, 0] S1x393216
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  bcast_S405504x1_S405504x256_0_1 : S405504x1.BroadcastsInDim S405504x256 (![0, 1] : Fin 2 → Fin S405504x256.rank)
  bcast_S_S12288x256 : S_.BroadcastsInDim S12288x256 (![] : Fin 0 → Fin S12288x256.rank)
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  bcast_S405504x1_S405504x64_0_1 : S405504x1.BroadcastsInDim S405504x64 (![0, 1] : Fin 2 → Fin S405504x64.rank)
  bcast_S_S12288x64 : S_.BroadcastsInDim S12288x64 (![] : Fin 0 → Fin S12288x64.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  scatter_S12288_S405504x1_S405504_n_0_0_1_wf : ScatterDims.WF S12288 S405504x1 S405504 [] [0] [0] 1
  gather_S12288_S405504x1_S405504_n_0_n_n_0_1_1_wf : GatherDims.WF S12288 S405504x1 S405504 [] [0] [] [0] [] 1 ![1]
  dot_S12288x256_S256x256_S12288x256_1_0_0_1_n_n_wf : DotDims.WF S12288x256 S256x256 S12288x256 [1] [0] [0] [1] [] []
  gather_S12288x256_S405504x1_S405504x256_1_0_n_n_0_1_1256_wf : GatherDims.WF S12288x256 S405504x1 S405504x256 [1] [0] [] [0] [] 1 ![1, 256]
  scatter_S12288x256_S405504x1_S405504x256_1_0_0_1_wf : ScatterDims.WF S12288x256 S405504x1 S405504x256 [1] [0] [0] 1
  dot_S12288x256_S256x64_S12288x64_1_0_0_1_n_n_wf : DotDims.WF S12288x256 S256x64 S12288x64 [1] [0] [0] [1] [] []
  gather_S12288x64_S405504x1_S405504x64_1_0_n_n_0_1_164_wf : GatherDims.WF S12288x64 S405504x1 S405504x64 [1] [0] [] [0] [] 1 ![1, 64]
  scatter_S12288x64_S405504x1_S405504x64_1_0_0_1_wf : ScatterDims.WF S12288x64 S405504x1 S405504x64 [1] [0] [0] 1
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S12288x64.size a
  hwx0_0 : ∀ i : grid0.Coords, EltTy.bits .f32 = 32 ∨ (Rect.block (s := S12288x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S12288x64.size a
  hwx0_1 : ∀ i : grid0.Coords, EltTy.bits .f32 = 32 ∨ (Rect.block (s := S12288x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S12288x12288.size a
  hwx0_2 : ∀ i : grid0.Coords, EltTy.bits .f32 = 32 ∨ (Rect.block (s := S12288x12288) S1024x1024.size (cc0_transform_2 i) (hinb0_2 i)).WholeWords (EltTy.packing .f32)

variable [Facts₀]

def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288_S405504x1_S405504_n_0_n_n_0_1_1 : GatherDims S12288 S405504x1 S405504 where
  offsetDims := []
  collapsedSliceDims := [0]
  operandBatchingDims := []
  startIndicesBatchingDims := []
  startIndexMap := [0]
  indexVectorDim := 1
  sliceSizes := ![1]
  wf := gather_S12288_S405504x1_S405504_n_0_n_n_0_1_1_wf
def dot_S12288x256_S256x256_S12288x256_1_0_0_1_n_n : DotDims S12288x256 S256x256 S12288x256 where
  lhsContracting := [1]
  rhsContracting := [0]
  lhsNonContracting := [0]
  rhsNonContracting := [1]
  lhsBatch := []
  rhsBatch := []
  wf := dot_S12288x256_S256x256_S12288x256_1_0_0_1_n_n_wf
def gather_S12288x256_S405504x1_S405504x256_1_0_n_n_0_1_1256 : GatherDims S12288x256 S405504x1 S405504x256 where
  offsetDims := [1]
  collapsedSliceDims := [0]
  operandBatchingDims := []
  startIndicesBatchingDims := []
  startIndexMap := [0]
  indexVectorDim := 1
  sliceSizes := ![1, 256]
  wf := gather_S12288x256_S405504x1_S405504x256_1_0_n_n_0_1_1256_wf
def scatter_S12288x256_S405504x1_S405504x256_1_0_0_1 : ScatterDims S12288x256 S405504x1 S405504x256 where
  updateWindowDims := [1]
  insertedWindowDims := [0]
  scatterDimsToOperandDims := [0]
  indexVectorDim := 1
  wf := scatter_S12288x256_S405504x1_S405504x256_1_0_0_1_wf
def dot_S12288x256_S256x64_S12288x64_1_0_0_1_n_n : DotDims S12288x256 S256x64 S12288x64 where
  lhsContracting := [1]
  rhsContracting := [0]
  lhsNonContracting := [0]
  rhsNonContracting := [1]
  lhsBatch := []
  rhsBatch := []
  wf := dot_S12288x256_S256x64_S12288x64_1_0_0_1_n_n_wf
def gather_S12288x64_S405504x1_S405504x64_1_0_n_n_0_1_164 : GatherDims S12288x64 S405504x1 S405504x64 where
  offsetDims := [1]
  collapsedSliceDims := [0]
  operandBatchingDims := []
  startIndicesBatchingDims := []
  startIndexMap := [0]
  indexVectorDim := 1
  sliceSizes := ![1, 64]
  wf := gather_S12288x64_S405504x1_S405504x64_1_0_n_n_0_1_164_wf
def scatter_S12288x64_S405504x1_S405504x64_1_0_0_1 : ScatterDims S12288x64 S405504x1 S405504x64 where
  updateWindowDims := [1]
  insertedWindowDims := [0]
  scatterDimsToOperandDims := [0]
  indexVectorDim := 1
  wf := scatter_S12288x64_S405504x1_S405504x64_1_0_0_1_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v87) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v87) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v88) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S12288x256 : Shape := ⟨2, ![12288, 256]⟩
abbrev S2x393216 : Shape := ⟨2, ![2, 393216]⟩
abbrev S256x256 : Shape := ⟨2, ![256, 256]⟩
abbrev S256 : Shape := ⟨1, ![256]⟩
abbrev S256x64 : Shape := ⟨2, ![256, 64]⟩
abbrev S64 : Shape := ⟨1, ![64]⟩
abbrev S12288 : Shape := ⟨1, ![12288]⟩
abbrev S1x393216 : Shape := ⟨2, ![1, 393216]⟩
abbrev S393216 : Shape := ⟨1, ![393216]⟩
abbrev S405504 : Shape := ⟨1, ![405504]⟩
abbrev S_ : Shape := ⟨0, ![]⟩
abbrev S405504x1 : Shape := ⟨2, ![405504, 1]⟩
abbrev S405504x256 : Shape := ⟨2, ![405504, 256]⟩
abbrev S1x256 : Shape := ⟨2, ![1, 256]⟩
abbrev S12288x64 : Shape := ⟨2, ![12288, 64]⟩
abbrev S405504x64 : Shape := ⟨2, ![405504, 64]⟩
abbrev S1x64 : Shape := ⟨2, ![1, 64]⟩
abbrev S64x12288 : Shape := ⟨2, ![64, 12288]⟩
abbrev S12288x12288 : Shape := ⟨2, ![12288, 12288]⟩

abbrev nBuf : Space → Nat
  | .hbm => 132
  | .vmem => 0
  | .smem => 0
  | _ => 0

abbrev hbmTy0_0 (i : Nat) : BufTy := match i % 128 with
  | 0 => ⟨S12288x256, .f32⟩
  | 1 => ⟨S2x393216, .i32⟩
  | 2 => ⟨S256x256, .f32⟩
  | 3 => ⟨S256, .f32⟩
  | 4 => ⟨S256x64, .f32⟩
  | 5 => ⟨S64, .f32⟩
  | 6 => ⟨S12288, .i32⟩
  | 7 => ⟨S1x393216, .i32⟩
  | 8 => ⟨S393216, .i32⟩
  | 9 => ⟨S405504, .i32⟩
  | 10 => ⟨S1x393216, .i32⟩
  | 11 => ⟨S393216, .i32⟩
  | 12 => ⟨S405504, .i32⟩
  | 13 => ⟨S_, .f32⟩
  | 14 => ⟨S405504, .f32⟩
  | 15 => ⟨S_, .f32⟩
  | 16 => ⟨S12288, .f32⟩
  | 17 => ⟨S405504x1, .i32⟩
  | 18 => ⟨S12288, .f32⟩
  | 19 => ⟨S_, .f32⟩
  | 20 => ⟨S12288, .f32⟩
  | 21 => ⟨S12288, .i1⟩
  | 22 => ⟨S12288, .f32⟩
  | 23 => ⟨S_, .f32⟩
  | 24 => ⟨S_, .f32⟩
  | 25 => ⟨S12288, .f32⟩
  | 26 => ⟨S12288, .f32⟩
  | 27 => ⟨S_, .i32⟩
  | 28 => ⟨S405504, .i32⟩
  | 29 => ⟨S405504, .i1⟩
  | 30 => ⟨S_, .i32⟩
  | 31 => ⟨S405504, .i32⟩
  | 32 => ⟨S405504, .i32⟩
  | 33 => ⟨S405504, .i32⟩
  | 34 => ⟨S405504x1, .i32⟩
  | 35 => ⟨S405504, .f32⟩
  | 36 => ⟨S_, .i32⟩
  | 37 => ⟨S405504, .i32⟩
  | 38 => ⟨S405504, .i1⟩
  | 39 => ⟨S_, .i32⟩
  | 40 => ⟨S405504, .i32⟩
  | 41 => ⟨S405504, .i32⟩
  | 42 => ⟨S405504, .i32⟩
  | 43 => ⟨S405504x1, .i32⟩
  | 44 => ⟨S405504, .f32⟩
  | 45 => ⟨S405504, .f32⟩
  | 46 => ⟨S12288x256, .f32⟩
  | 47 => ⟨S_, .i32⟩
  | 48 => ⟨S405504, .i32⟩
  | 49 => ⟨S405504, .i1⟩
  | 50 => ⟨S_, .i32⟩
  | 51 => ⟨S405504, .i32⟩
  | 52 => ⟨S405504, .i32⟩
  | 53 => ⟨S405504, .i32⟩
  | 54 => ⟨S405504x1, .i32⟩
  | 55 => ⟨S405504x256, .f32⟩
  | 56 => ⟨S405504x1, .f32⟩
  | 57 => ⟨S405504x256, .f32⟩
  | 58 => ⟨S405504x256, .f32⟩
  | 59 => ⟨S_, .f32⟩
  | 60 => ⟨S12288x256, .f32⟩
  | 61 => ⟨S405504x1, .i32⟩
  | 62 => ⟨S12288x256, .f32⟩
  | 63 => ⟨S1x256, .f32⟩
  | 64 => ⟨S12288x256, .f32⟩
  | 65 => ⟨S12288x256, .f32⟩
  | 66 => ⟨S_, .f32⟩
  | 67 => ⟨S12288x256, .f32⟩
  | 68 => ⟨S12288x256, .f32⟩
  | 69 => ⟨S_, .f32⟩
  | 70 => ⟨S405504, .f32⟩
  | 71 => ⟨S_, .f32⟩
  | 72 => ⟨S12288, .f32⟩
  | 73 => ⟨S405504x1, .i32⟩
  | 74 => ⟨S12288, .f32⟩
  | 75 => ⟨S_, .f32⟩
  | 76 => ⟨S12288, .f32⟩
  | 77 => ⟨S12288, .i1⟩
  | 78 => ⟨S12288, .f32⟩
  | 79 => ⟨S_, .f32⟩
  | 80 => ⟨S_, .f32⟩
  | 81 => ⟨S12288, .f32⟩
  | 82 => ⟨S12288, .f32⟩
  | 83 => ⟨S_, .i32⟩
  | 84 => ⟨S405504, .i32⟩
  | 85 => ⟨S405504, .i1⟩
  | 86 => ⟨S_, .i32⟩
  | 87 => ⟨S405504, .i32⟩
  | 88 => ⟨S405504, .i32⟩
  | 89 => ⟨S405504, .i32⟩
  | 90 => ⟨S405504x1, .i32⟩
  | 91 => ⟨S405504, .f32⟩
  | 92 => ⟨S_, .i32⟩
  | 93 => ⟨S405504, .i32⟩
  | 94 => ⟨S405504, .i1⟩
  | 95 => ⟨S_, .i32⟩
  | 96 => ⟨S405504, .i32⟩
  | 97 => ⟨S405504, .i32⟩
  | 98 => ⟨S405504, .i32⟩
  | 99 => ⟨S405504x1, .i32⟩
  | 100 => ⟨S405504, .f32⟩
  | 101 => ⟨S405504, .f32⟩
  | 102 => ⟨S12288x64, .f32⟩
  | 103 => ⟨S_, .i32⟩
  | 104 => ⟨S405504, .i32⟩
  | 105 => ⟨S405504, .i1⟩
  | 106 => ⟨S_, .i32⟩
  | 107 => ⟨S405504, .i32⟩
  | 108 => ⟨S405504, .i32⟩
  | 109 => ⟨S405504, .i32⟩
  | 110 => ⟨S405504x1, .i32⟩
  | 111 => ⟨S405504x64, .f32⟩
  | 112 => ⟨S405504x1, .f32⟩
  | 113 => ⟨S405504x64, .f32⟩
  | 114 => ⟨S405504x64, .f32⟩
  | 115 => ⟨S_, .f32⟩
  | 116 => ⟨S12288x64, .f32⟩
  | 117 => ⟨S405504x1, .i32⟩
  | 118 => ⟨S12288x64, .f32⟩
  | 119 => ⟨S1x64, .f32⟩
  | 120 => ⟨S12288x64, .f32⟩
  | 121 => ⟨S12288x64, .f32⟩
  | 122 => ⟨S64x12288, .f32⟩
  | 123 => ⟨S12288x12288, .f32⟩
  | 124 => ⟨S12288x12288, .f32⟩
  | 125 => ⟨S12288x12288, .f32⟩
  | 126 => ⟨S_, .f32⟩
  | 127 => ⟨S12288x12288, .f32⟩
  | _ => ⟨S12288x256, .f32⟩

abbrev hbmTy0_1 (i : Nat) : BufTy := match i % 128 with
  | 0 => ⟨S12288x12288, .f32⟩
  | 1 => ⟨S_, .f32⟩
  | 2 => ⟨S12288x12288, .f32⟩
  | 3 => ⟨S12288x12288, .f32⟩
  | _ => ⟨S12288x256, .f32⟩

abbrev hbmTy (i : Nat) : BufTy := match i / 128 with
  | 0 => hbmTy0_0 i
  | 1 => hbmTy0_1 i
  | _ => ⟨S12288x256, .f32⟩

abbrev bufTy : (tb : Table) → Fin (tcTables nBuf tb) → BufTy
  | .hbm, ⟨i, _⟩ => hbmTy i
  | _, _ => ⟨S12288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_20 : Ref sig .tc := ⟨.hbm, 126, rfl⟩
abbrev main_v92 : Ref sig .tc := ⟨.hbm, 127, rfl⟩
abbrev main_v93 : Ref sig .tc := ⟨.hbm, 128, rfl⟩
abbrev main_cst_21 : Ref sig .tc := ⟨.hbm, 129, rfl⟩
abbrev main_v94 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x393216_S1x393216_0_0 : S2x393216.Slices ![0, 0] S1x393216
  shapeCasts_S1x393216_S393216 : S1x393216.ShapeCasts S393216
  concatenates_S393216_S12288_S405504_d0 : Shape.Concatenates [S393216, S12288] S405504 0
  slices_S2x393216_S1x393216_1_0 : S2x393216.Slices ![1, 0] S1x393216
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  bcast_S405504x1_S405504x256_0_1 : S405504x1.BroadcastsInDim S405504x256 (![0, 1] : Fin 2 → Fin S405504x256.rank)
  bcast_S_S12288x256 : S_.BroadcastsInDim S12288x256 (![] : Fin 0 → Fin S12288x256.rank)
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  bcast_S405504x1_S405504x64_0_1 : S405504x1.BroadcastsInDim S405504x64 (![0, 1] : Fin 2 → Fin S405504x64.rank)
  bcast_S_S12288x64 : S_.BroadcastsInDim S12288x64 (![] : Fin 0 → Fin S12288x64.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  transposes_S12288x64_S64x12288_1_0 : S12288x64.Transposes [1, 0] S64x12288
  bcast_S_S12288x12288 : S_.BroadcastsInDim S12288x12288 (![] : Fin 0 → Fin S12288x12288.rank)
  scatter_S12288_S405504x1_S405504_n_0_0_1_wf : ScatterDims.WF S12288 S405504x1 S405504 [] [0] [0] 1
  gather_S12288_S405504x1_S405504_n_0_n_n_0_1_1_wf : GatherDims.WF S12288 S405504x1 S405504 [] [0] [] [0] [] 1 ![1]
  dot_S12288x256_S256x256_S12288x256_1_0_0_1_n_n_wf : DotDims.WF S12288x256 S256x256 S12288x256 [1] [0] [0] [1] [] []
  gather_S12288x256_S405504x1_S405504x256_1_0_n_n_0_1_1256_wf : GatherDims.WF S12288x256 S405504x1 S405504x256 [1] [0] [] [0] [] 1 ![1, 256]
  scatter_S12288x256_S405504x1_S405504x256_1_0_0_1_wf : ScatterDims.WF S12288x256 S405504x1 S405504x256 [1] [0] [0] 1
  dot_S12288x256_S256x64_S12288x64_1_0_0_1_n_n_wf : DotDims.WF S12288x256 S256x64 S12288x64 [1] [0] [0] [1] [] []
  gather_S12288x64_S405504x1_S405504x64_1_0_n_n_0_1_164_wf : GatherDims.WF S12288x64 S405504x1 S405504x64 [1] [0] [] [0] [] 1 ![1, 64]
  scatter_S12288x64_S405504x1_S405504x64_1_0_0_1_wf : ScatterDims.WF S12288x64 S405504x1 S405504x64 [1] [0] [0] 1
  dot_S12288x64_S64x12288_S12288x12288_1_0_0_1_n_n_wf : DotDims.WF S12288x64 S64x12288 S12288x12288 [1] [0] [0] [1] [] []

variable [Facts₀]

def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288_S405504x1_S405504_n_0_n_n_0_1_1 : GatherDims S12288 S405504x1 S405504 where
  offsetDims := []
  collapsedSliceDims := [0]
  operandBatchingDims := []
  startIndicesBatchingDims := []
  startIndexMap := [0]
  indexVectorDim := 1
  sliceSizes := ![1]
  wf := gather_S12288_S405504x1_S405504_n_0_n_n_0_1_1_wf
def dot_S12288x256_S256x256_S12288x256_1_0_0_1_n_n : DotDims S12288x256 S256x256 S12288x256 where
  lhsContracting := [1]
  rhsContracting := [0]
  lhsNonContracting := [0]
  rhsNonContracting := [1]
  lhsBatch := []
  rhsBatch := []
  wf := dot_S12288x256_S256x256_S12288x256_1_0_0_1_n_n_wf
def gather_S12288x256_S405504x1_S405504x256_1_0_n_n_0_1_1256 : GatherDims S12288x256 S405504x1 S405504x256 where
  offsetDims := [1]
  collapsedSliceDims := [0]
  operandBatchingDims := []
  startIndicesBatchingDims := []
  startIndexMap := [0]
  indexVectorDim := 1
  sliceSizes := ![1, 256]
  wf := gather_S12288x256_S405504x1_S405504x256_1_0_n_n_0_1_1256_wf
def scatter_S12288x256_S405504x1_S405504x256_1_0_0_1 : ScatterDims S12288x256 S405504x1 S405504x256 where
  updateWindowDims := [1]
  insertedWindowDims := [0]
  scatterDimsToOperandDims := [0]
  indexVectorDim := 1
  wf := scatter_S12288x256_S405504x1_S405504x256_1_0_0_1_wf
def dot_S12288x256_S256x64_S12288x64_1_0_0_1_n_n : DotDims S12288x256 S256x64 S12288x64 where
  lhsContracting := [1]
  rhsContracting := [0]
  lhsNonContracting := [0]
  rhsNonContracting := [1]
  lhsBatch := []
  rhsBatch := []
  wf := dot_S12288x256_S256x64_S12288x64_1_0_0_1_n_n_wf
def gather_S12288x64_S405504x1_S405504x64_1_0_n_n_0_1_164 : GatherDims S12288x64 S405504x1 S405504x64 where
  offsetDims := [1]
  collapsedSliceDims := [0]
  operandBatchingDims := []
  startIndicesBatchingDims := []
  startIndexMap := [0]
  indexVectorDim := 1
  sliceSizes := ![1, 64]
  wf := gather_S12288x64_S405504x1_S405504x64_1_0_n_n_0_1_164_wf
def scatter_S12288x64_S405504x1_S405504x64_1_0_0_1 : ScatterDims S12288x64 S405504x1 S405504x64 where
  updateWindowDims := [1]
  insertedWindowDims := [0]
  scatterDimsToOperandDims := [0]
  indexVectorDim := 1
  wf := scatter_S12288x64_S405504x1_S405504x64_1_0_0_1_wf
def dot_S12288x64_S64x12288_S12288x12288_1_0_0_1_n_n : DotDims S12288x64 S64x12288 S12288x12288 where
  lhsContracting := [1]
  rhsContracting := [0]
  lhsNonContracting := [0]
  rhsNonContracting := [1]
  lhsBatch := []
  rhsBatch := []
  wf := dot_S12288x64_S64x12288_S12288x12288_1_0_0_1_n_n_wf

class Facts : Prop extends Facts₀ where

variable [Facts]
-- ==== Proof.WordDecodeEntry.lean ====
/-
  (The word-level program: the same statement and argument as for the idealized one, which never looks at a
  float's value.)

  What the decode region finds when it is entered.

  Both GCN layers run on the host before the one kernel launch, so by the time the tiled decode starts every
  buffer of the TensorCore holds what the seven stretches of host operations left there: the node embedding
  z : f32[12288, 64] in particular, which the launch hands to the kernel twice (once as the row operand, once as
  the column operand). None of those operations writes an argument array, so the six arguments are still as
  launched. A window's block at a grid point is its rectangle of the array read off these entry contents.
-/
import proofs.«120068_j8220567405314_1_alg».proof.Proof.Gen.Kernel.Launch
import proofs.«120068_j8220567405314_1_alg».proof.Proof.Gen.Kernel.Skeleton
import proofs.«120068_j8220567405314_1_alg».proof.Proof.Gen.Kernel.Points
import Idealize.ShloMosaic.Lib.Pipeline.Frame
import Idealize.ShloMosaic.Lib.Pipeline.FrameBody

set_option maxRecDepth 16384

noncomputable section

namespace Cert.Kernel.Decode

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]

variable (m : (ℓ : Loc nD τ sig) → Buf (Elt F) ℓ)

/-- The host stretches before the launch, in program order. -/
abbrev stretches : List (List (HloOp τ sig (Elt F))) :=
  [hostOps0, hostOps0_1, hostOps0_2, hostOps0_3, hostOps0_4, hostOps0_5, hostOps0_6]

/-- Core `c`'s TensorCore buffers at the region's entry: the launch memory after every host stretch. -/
abbrev V (c : Dev nD) (b : Ref sig .tc) : Buf (Elt F) ((c : Thread nD τ).loc b) :=
  StableHlo.after (List.flatten (stretches (F := F))) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor

/-- @main is the seven host stretches and then the launch. -/
theorem entry_main (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F))
    (by simp only [List.Forall]; exact ⟨hostOps0_sub, hostOps0_1_sub, hostOps0_2_sub, hostOps0_3_sub, hostOps0_4_sub, hostOps0_5_sub, hostOps0_6_sub⟩)
    (by simp only [List.Forall]; exact ⟨fresh0, fresh1, fresh2, fresh3, fresh4, fresh5, fresh6⟩) main_chain

/-- No host operation writes reference `b` when `b` is none of the buffers the stretches define. -/
theorem untouched (c : Dev nD) (b : Ref sig .tc)
    (hb : ∀ op ∈ List.flatten (stretches (F := F)), Proc.devRef .tc b ∉ op.writes) :
    V m c b = m ((c : Thread nD τ).loc b) :=
  StableHlo.after_of_forall_not_mem (b := Proc.devRef .tc b) _ _ hb

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.Kernel.Decode

end
-- ==== Proof.WordDecodeBody.lean ====
/-
  (The word-level program: the same statement and argument as for the idealized one, which never looks at a
  float's value.)

  One run of the decode body.

  At a grid point the body reads a 1024-row slab of z through each of its two input windows, multiplies the
  slabs row against row over the 64 features into a zero accumulator, applies the logistic function, and
  overwrites the whole 1024 x 1024 output tile with the result. (It also loads the tile once before the store;
  that value is never used.) So whatever the tile held before, afterwards it holds the one stored value, and the
  two slabs are as they were.
-/
import proofs.«120068_j8220567405314_1_alg».proof.Proof.WordDecodeEntry
import Idealize.ShloMosaic.Lib.Ring
import Idealize.ShloMosaic.Lib.Tactic

set_option maxRecDepth 16384

noncomputable section

namespace Cert.Kernel.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The whole of a 1024 x 64 slab, as the body loads it. -/
abbrev slabRect : Rect S1024x64 := Rect.unit (s := S1024x64) ![0, 0] S1024x64.size inb_S1024x64_S1024x64_0_0
/-- The whole of the 1024 x 1024 tile, as the body stores it. -/
abbrev tileRect : Rect S1024x1024 := Rect.unit (s := S1024x1024) ![0, 0] S1024x1024.size inb_S1024x1024_S1024x1024_0_0

/-- The output tile after the body, from the row slab `zi` and the column slab `zj`: the body's single store. -/
def tile (zi zj : Vec F S1024x64 .f32) : Vec F S1024x1024 .f32 :=
  View.canon [⟨tileRect, k0_pay1 (View.ld zi slabRect) (View.ld zj slabRect)⟩]

/-- That store covers the tile. -/
theorem tile_covered (p : Vec F S1024x1024 .f32) (y : S1024x1024.Idx) :
    ∃ pc ∈ ([⟨tileRect, p⟩] : List (View.Piece (Elt F) S1024x1024 .f32)), y ∈ pc.1.set :=
  View.cover_of_tiled [⟨tileRect, p⟩] S1024x1024.size (by rfl) y

set_option maxHeartbeats 1000000 in
/-- The body on whole staging memrefs, the slabs at `zi`, `zj` and the tile at anything, runs to a state with the
    slabs unchanged and the tile at `tile zi zj`. -/
theorem body_runs (c : Dev nD) (E : Set ℕ) (i : grid0.Coords)
    (a2 : Memref sig .tc .vmem S1024x64 .f32) (h2 : a2.IsWhole) (a3 : Memref sig .tc .vmem S1024x64 .f32) (h3 : a3.IsWhole)
    (a4 : Memref sig .tc .vmem S1024x1024 .f32) (h4 : a4.IsWhole)
    (zi zj : Vec F S1024x64 .f32) (K : PUnit → sProp 𝕄) :
    iprop(owns (c : Thread nD τ) a2 fullShare zi ∗ owns (c : Thread nD τ) a3 fullShare zj ∗ (∃ d, owns (c : Thread nD τ) a4 fullShare d)
        ∗ (iprop(owns (c : Thread nD τ) a2 fullShare zi ∗ owns (c : Thread nD τ) a3 fullShare zj
            ∗ owns (c : Thread nD τ) a4 fullShare (tile zi zj)) -∗ K ⟨⟩))
      ⊢ wp frame (wpE (defs₀ (F := F)) Variants.none c none) E (cc0__decode_kernel i a2 h2 a3 h3 a4 h4) K := by
  simp only [cc0__decode_kernel_eq_skeleton]; unfold cc0__decode_kernel_skel
  unfold owns
  iintro ⟨⟨%fi, %hfi, Hi⟩, ⟨%fj, %hfj, Hj⟩, ⟨%d, %fo, -, Ho⟩, Hk⟩
  subst hfi hfj
  sl_exec
  sl_step
  iapply Hk
  isplitl [Hi]
  · iexists fi; isplitr; · ipureintro; rfl
    iexact Hi
  isplitl [Hj]
  · iexists fj; isplitr; · ipureintro; rfl
    iexact Hj
  iexists _; isplitr
  swap; · iexact Ho
  ipureintro
  exact View.read_writes_eq_canon _ _ _ (tile_covered _)

end Cert.Kernel.Decode

end
-- ==== Proof.WordDecodeData.lean ====
/-
  (The word-level program: the same statement and argument as for the idealized one, which never looks at a
  float's value.)

  The pipeline's proof data, and the body obligation at every grid point.

  The launch walks the 12 x 12 grid. At point t = (i, j) window 0 stages row slab i of z, window 1 stages row slab j
  of z, and window 2 is the output tile (i, j). The body only reads the two slabs, so each input buffer still holds
  its slab afterwards, and the output buffer holds the tile computed from them. Both input windows read the SAME
  array z, so neither can hold it whole: window 0 holds the left half of its share and window 1 the right half (a
  read needs only some positive share). The body keeps nothing between points and draws no random
  bits, so the invariant is just the scoped rest of the core, untouched.
-/
import proofs.«120068_j8220567405314_1_alg».proof.Proof.WordDecodeBody

set_option maxRecDepth 16384

noncomputable section

namespace Cert.Kernel.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_tile (c : Dev nD) (t : Fin cfg0.N) :
    (dats m 0 c).after 2 t = tile (iblk m c 0 t) (iblk m c 1 t) := by dsimp only [dats]

/-- The row window's buffer holds row slab `i` at every point, fetched there or not (it is fetched only when `j = 0`;
    in between the index has not moved and the body left the slab in place). -/
theorem before_rows (c : Dev nD) (t : Fin cfg0.N) (d) : (dats m 0 c).before 0 t d = iblk m c 0 t :=
  ((dats m 0 c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)

/-- The column window's buffer holds row slab `j` at every point. -/
theorem before_cols (c : Dev nD) (t : Fin cfg0.N) (d) : (dats m 0 c).before 1 t d = iblk m c 1 t :=
  ((dats m 0 c).before_in_eq_fetched 1 rfl (fun _ => rfl) (fun _ _ _ => rfl)
      (fun t => by rw [after_cols]; unfold Dat.blockOf iblk; rw [A_eq]; try rfl) t d).trans
    (by unfold Dat.fetched Dat.blockOf iblk; rw [A_eq]; try rfl)

/-- What the body is called with at point `t`, the windows one by one, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their slabs, so `body_runs` applies; the invariant and what the
    core owes pass through unread. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [before_rows, before_cols]
  rw [show (dats m 0 c).Φ t.succ = (dats m 0 c).Φ t.castSucc from rfl,
    show (dats m 0 c).owesAt () t.succ = (dats m 0 c).owesAt () t.castSucc from rfl,
    after_rows, after_cols, after_tile]
  iintro ⟨HΦ, Hw, ⟨%d0, H0⟩, ⟨%d1, H1⟩, ⟨%d2, H2⟩⟩
  iapply (body_runs c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Hw]; · iexact Hw
  isplitl [H0]; · iexact H0
  isplitl [H1]; · iexact H1
  iexact H2

/-- The library's body obligation, at every point. -/
theorem body_obligation (c : Dev nD) :
    BodyObligation (dats (F := F) m 0 c) (defs₀ (F := F)) Variants.none () Set.univ := fun t => by
  rw [bigSep_W0, bigSep_W0]
  exact point_runs m c t

end Cert.Kernel.Decode

end
-- ==== Proof.WordDecodeLaunch.lean ====
/-
  (The word-level program: the same statement and argument as for the idealized one, which never looks at a
  float's value.)

  The launch of the decode region, and what the program ends with.

  The kernel is handed the embedding z through two input windows, so the launch cannot give each window's array to
  the pipeline at the full share as it does for distinct arrays. Instead z's buffer, held whole on entry, is dealt in
  two: the row window reads through the left half of the share, the column window through the right half, and the
  output array goes to its window whole. With that deal stated, the launch theorem for windows that share an array
  runs @main: every weakly fair execution terminates, the output array holds what the write-backs of the 144 points
  put there, the two input windows' array ends as it was found, and every other unscoped buffer (the six arguments
  among them) is as the region found it.
-/
import proofs.«120068_j8220567405314_1_alg».proof.Proof.WordDecodeData

set_option maxRecDepth 16384

noncomputable section

namespace Cert.Kernel.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Behind the three windows there are two buffers: the embedding and the output. -/
theorem two_buffers : Finset.univ.image (Pipeline.arrRef spec0) = [main_v87, main_v88].toFinset := by decide

/-- A conjunction over the windows' buffers is the embedding's conjunct and the output's. -/
theorem over_buffers {M : Type} [URA M] (Ψ : Ref sig .tc → sProp M) :
    bigSep (Finset.univ.image (Pipeline.arrRef spec0)) Ψ = iprop(Ψ main_v87 ∗ Ψ main_v88) :=
  bigSep_eq_bigSepL_of_eq [main_v87, main_v88] two_buffers (by decide) Ψ

set_option maxHeartbeats 4000000 in
/-- The deal, for any entry contents `W` and any proof data whose arrays are `W`'s and whose two input windows hold the
    left and the right half of a share: the embedding's buffer, whole at `W`, split along its share between the two
    input windows; the output's buffer handed over whole. (The deal does not depend on what the buffers hold: it is stated for any contents `W`.) -/
theorem deal_of (c : Dev nD) (W : (b : Ref sig .tc) → Buf (Elt F) ((c.tc : Thread nD τ).loc b))
    (dat : Dat τ (Elt F) Unit ℕ (UR sig nD τ) ℕ cfg0 c)
    (hl : dat.q 0 = fullShare.left) (hr : dat.q 1 = fullShare.right)
    (hA : ∀ w, dat.A w = W (Pipeline.arrRef spec0 w)) :
    (Pipeline.arrBufs spec0 c W : sProp 𝕄) ⊢ dat.arrays (dat.arrAt · 0) := by
  have s0 : dat.share 0 = fullShare.left := (show dat.share 0 = dat.q 0 from rfl).trans hl
  have s1 : dat.share 1 = fullShare.right := (show dat.share 1 = dat.q 1 from rfl).trans hr
  have s2 : dat.share 2 = fullShare := rfl
  have a0 : dat.arrAt 0 0 = W main_v87 := hA 0
  have a1 : dat.arrAt 1 0 = W main_v87 := hA 1
  have a2 : dat.arrAt 2 0 = W main_v88 := hA 2
  unfold Pipeline.arrBufs Dat.arrays
  rw [over_buffers, bigSep_W0, (arr_whole0 0).set_eq_univ, (arr_whole0 2).set_eq_univ, s0, s1, s2]
  beta_reduce
  rw [a0, a1, a2]
  iintro ⟨Hz, Ho⟩
  ihave ⟨Hl, Hr⟩ := (pointsTo_share (PosShare.mem_left_op_right fullShare)).1 $$ Hz
  isplitl [Hl]; · iexact Hl
  isplitl [Hr]; · iexact Hr
  iexact Ho

theorem deal (c : Dev nD) :
    (Pipeline.arrBufs spec0 c (V m c) : sProp 𝕄) ⊢ (dats m 0 c).arrays ((dats m 0 c).arrAt · 0) :=
  deal_of c (V m c) (dats m 0 c) (by dsimp only [dats]) (by dsimp only [dats]) (A_eq m c)

/-- The invariant is the scoped rest at every point. -/
theorem inv_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

set_option maxHeartbeats 4000000 in
set_option backward.isDefEq.respectTransparency.types false in
/-- The run of @main, to the frame post of the pipeline library. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := entry_main m Variants.none) (hsplit := deal m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr [H]; · iempintro
      iexact H)
    (hin := fun c => by
      rw [inv_eq]
      iintro ⟨-, H⟩
      iexact H)
    (hout := fun c => by
      rw [inv_eq]
      iintro H
      isplitr [H]; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.Kernel.Decode

end
-- ==== Proof.WordDecodeFrame.lean ====
/-
  (The word-level program: the same statement and argument as for the idealized one, which never looks at a
  float's value.)

  The frame: the program terminates, faults nowhere, and leaves its six arguments as they were.

  The arguments are read by host operations only; none of the 126 host operations before the launch writes one of
  them, and the region stages only the embedding and the output. So each argument is among the buffers that bypass
  the region, ends as the region found it, and the region found it as launched.
-/
import proofs.«120068_j8220567405314_1_alg».proof.Proof.WordDecodeLaunch

set_option maxRecDepth 16384

noncomputable section

namespace Cert.Kernel.Decode

open Idealize.ShloMosaic Idealize.ShloMosaic.TcCoe
open Idealize.SL.Sem
open Cert.Kernel Cert.Kernel.Gen

variable {F : FTy → Type} [FloatOps F]

variable (m : (ℓ : Loc nD τ sig) → Buf (Elt F) ℓ) (ρ : Dev nD → PrngReg)

/-- Every host operation writes its own result buffer, never the reference at hand. -/
local macro "no_host_write" : tactic => `(tactic| (
  refine List.forall_iff_forall_mem.mp ?_
  simp only [stretches, hostOps0, hostOps0_1, hostOps0_2, hostOps0_3, hostOps0_4, hostOps0_5, hostOps0_6,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem found_x (c : Dev nD) : V m c main_arg0 = m ((c : Thread nD τ).loc main_arg0) := untouched m c main_arg0 (by no_host_write)
theorem found_edges (c : Dev nD) : V m c main_arg1 = m ((c : Thread nD τ).loc main_arg1) := untouched m c main_arg1 (by no_host_write)
theorem found_W1 (c : Dev nD) : V m c main_arg2 = m ((c : Thread nD τ).loc main_arg2) := untouched m c main_arg2 (by no_host_write)
theorem found_b1 (c : Dev nD) : V m c main_arg3 = m ((c : Thread nD τ).loc main_arg3) := untouched m c main_arg3 (by no_host_write)
theorem found_W2 (c : Dev nD) : V m c main_arg4 = m ((c : Thread nD τ).loc main_arg4) := untouched m c main_arg4 (by no_host_write)
theorem found_b2 (c : Dev nD) : V m c main_arg5 = m ((c : Thread nD τ).loc main_arg5) := untouched m c main_arg5 (by no_host_write)

/-- An argument is unscoped and is neither the embedding nor the output: it bypasses the region. -/
theorem bypass (b : Ref sig .tc) (hs : b.isScoped = false) (h87 : main_v87 ≠ b) (h88 : main_v88 ≠ b) :
    b ∈ Pipeline.restRefs sig spec0 :=
  Pipeline.mem_restRefs_of b hs (fun w => by
    match w with
    | ⟨0, _⟩ => exact h87
    | ⟨1, _⟩ => exact h87
    | ⟨2, _⟩ => exact h88)

/-- The frame post read at the six arguments: each ends as launched. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (bypass main_arg0 rfl (by decide) (by decide))).trans (found_x m c),
   ((h c).2 main_arg1 (bypass main_arg1 rfl (by decide) (by decide))).trans (found_edges m c),
   ((h c).2 main_arg2 (bypass main_arg2 rfl (by decide) (by decide))).trans (found_W1 m c),
   ((h c).2 main_arg3 (bypass main_arg3 rfl (by decide) (by decide))).trans (found_b1 m c),
   ((h c).2 main_arg4 (bypass main_arg4 rfl (by decide) (by decide))).trans (found_W2 m c),
   ((h c).2 main_arg5 (bypass main_arg5 rfl (by decide) (by decide))).trans (found_b2 m c)⟩

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => kept m r h c) (run_main m ρ)

end Cert.Kernel.Decode

end
-- ==== Proof.DecodeEntry.lean ====
/-
  What the decode region finds when it is entered.

  Both GCN layers run on the host before the one kernel launch, so by the time the tiled decode starts every
  buffer of the TensorCore holds what the seven stretches of host operations left there: the node embedding
  z : f32[12288, 64] in particular, which the launch hands to the kernel twice (once as the row operand, once as
  the column operand). None of those operations writes an argument array, so the six arguments are still as
  launched. A window's block at a grid point is its rectangle of the array read off these entry contents.
-/
import proofs.«120068_j8220567405314_1_alg».proof.Proof.Gen.KernelIdeal.Launch
import proofs.«120068_j8220567405314_1_alg».proof.Proof.Gen.KernelIdeal.Skeleton
import proofs.«120068_j8220567405314_1_alg».proof.Proof.Gen.KernelIdeal.Points
import Idealize.ShloMosaic.Lib.Pipeline.Frame
import Idealize.ShloMosaic.Lib.Pipeline.FrameBody

set_option maxRecDepth 16384

noncomputable section

namespace Cert.KernelIdeal.Decode

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]

variable (m : (ℓ : Loc nD τ sig) → Buf (Elt F) ℓ)

/-- The host stretches before the launch, in program order. -/
abbrev stretches : List (List (HloOp τ sig (Elt F))) :=
  [hostOps0, hostOps0_1, hostOps0_2, hostOps0_3, hostOps0_4, hostOps0_5, hostOps0_6]

/-- Core `c`'s TensorCore buffers at the region's entry: the launch memory after every host stretch. -/
abbrev V (c : Dev nD) (b : Ref sig .tc) : Buf (Elt F) ((c : Thread nD τ).loc b) :=
  StableHlo.after (List.flatten (stretches (F := F))) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor

/-- @main is the seven host stretches and then the launch. -/
theorem entry_main (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F))
    (by simp only [List.Forall]; exact ⟨hostOps0_sub, hostOps0_1_sub, hostOps0_2_sub, hostOps0_3_sub, hostOps0_4_sub, hostOps0_5_sub, hostOps0_6_sub⟩)
    (by simp only [List.Forall]; exact ⟨fresh0, fresh1, fresh2, fresh3, fresh4, fresh5, fresh6⟩) main_chain

/-- No host operation writes reference `b` when `b` is none of the buffers the stretches define. -/
theorem untouched (c : Dev nD) (b : Ref sig .tc)
    (hb : ∀ op ∈ List.flatten (stretches (F := F)), Proc.devRef .tc b ∉ op.writes) :
    V m c b = m ((c : Thread nD τ).loc b) :=
  StableHlo.after_of_forall_not_mem (b := Proc.devRef .tc b) _ _ hb

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.KernelIdeal.Decode

end
-- ==== Proof.DecodeBody.lean ====
/-
  One run of the decode body.

  At a grid point the body reads a 1024-row slab of z through each of its two input windows, multiplies the
  slabs row against row over the 64 features into a zero accumulator, applies the logistic function, and
  overwrites the whole 1024 x 1024 output tile with the result. (It also loads the tile once before the store;
  that value is never used.) So whatever the tile held before, afterwards it holds the one stored value, and the
  two slabs are as they were.
-/
import proofs.«120068_j8220567405314_1_alg».proof.Proof.DecodeEntry
import Idealize.ShloMosaic.Lib.Ring
import Idealize.ShloMosaic.Lib.Tactic

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The whole of a 1024 x 64 slab, as the body loads it. -/
abbrev slabRect : Rect S1024x64 := Rect.unit (s := S1024x64) ![0, 0] S1024x64.size inb_S1024x64_S1024x64_0_0
/-- The whole of the 1024 x 1024 tile, as the body stores it. -/
abbrev tileRect : Rect S1024x1024 := Rect.unit (s := S1024x1024) ![0, 0] S1024x1024.size inb_S1024x1024_S1024x1024_0_0

/-- The output tile after the body, from the row slab `zi` and the column slab `zj`: the body's single store. -/
def tile (zi zj : Vec F S1024x64 .f32) : Vec F S1024x1024 .f32 :=
  View.canon [⟨tileRect, k0_pay1 (View.ld zi slabRect) (View.ld zj slabRect)⟩]

/-- That store covers the tile. -/
theorem tile_covered (p : Vec F S1024x1024 .f32) (y : S1024x1024.Idx) :
    ∃ pc ∈ ([⟨tileRect, p⟩] : List (View.Piece (Elt F) S1024x1024 .f32)), y ∈ pc.1.set :=
  View.cover_of_tiled [⟨tileRect, p⟩] S1024x1024.size (by rfl) y

set_option maxHeartbeats 1000000 in
/-- The body on whole staging memrefs, the slabs at `zi`, `zj` and the tile at anything, runs to a state with the
    slabs unchanged and the tile at `tile zi zj`. -/
theorem body_runs (c : Dev nD) (E : Set ℕ) (i : grid0.Coords)
    (a2 : Memref sig .tc .vmem S1024x64 .f32) (h2 : a2.IsWhole) (a3 : Memref sig .tc .vmem S1024x64 .f32) (h3 : a3.IsWhole)
    (a4 : Memref sig .tc .vmem S1024x1024 .f32) (h4 : a4.IsWhole)
    (zi zj : Vec F S1024x64 .f32) (K : PUnit → sProp 𝕄) :
    iprop(owns (c : Thread nD τ) a2 fullShare zi ∗ owns (c : Thread nD τ) a3 fullShare zj ∗ (∃ d, owns (c : Thread nD τ) a4 fullShare d)
        ∗ (iprop(owns (c : Thread nD τ) a2 fullShare zi ∗ owns (c : Thread nD τ) a3 fullShare zj
            ∗ owns (c : Thread nD τ) a4 fullShare (tile zi zj)) -∗ K ⟨⟩))
      ⊢ wp frame (wpE (defs₀ (F := F)) Variants.none c none) E (cc0__decode_kernel i a2 h2 a3 h3 a4 h4) K := by
  simp only [cc0__decode_kernel_eq_skeleton]; unfold cc0__decode_kernel_skel
  unfold owns
  iintro ⟨⟨%fi, %hfi, Hi⟩, ⟨%fj, %hfj, Hj⟩, ⟨%d, %fo, -, Ho⟩, Hk⟩
  subst hfi hfj
  sl_exec
  sl_step
  iapply Hk
  isplitl [Hi]
  · iexists fi; isplitr; · ipureintro; rfl
    iexact Hi
  isplitl [Hj]
  · iexists fj; isplitr; · ipureintro; rfl
    iexact Hj
  iexists _; isplitr
  swap; · iexact Ho
  ipureintro
  exact View.read_writes_eq_canon _ _ _ (tile_covered _)

end Cert.KernelIdeal.Decode

end
-- ==== Proof.DecodeData.lean ====
/-
  The pipeline's proof data, and the body obligation at every grid point.

  The launch walks the 12 x 12 grid. At point t = (i, j) window 0 stages row slab i of z, window 1 stages row slab j
  of z, and window 2 is the output tile (i, j). The body only reads the two slabs, so each input buffer still holds
  its slab afterwards, and the output buffer holds the tile computed from them. Both input windows read the SAME
  array z, so neither can hold it whole: window 0 holds the left half of its share and window 1 the right half (a
  read needs only some positive share). The body keeps nothing between points and draws no random
  bits, so the invariant is just the scoped rest of the core, untouched.
-/
import proofs.«120068_j8220567405314_1_alg».proof.Proof.DecodeBody

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_tile (c : Dev nD) (t : Fin cfg0.N) :
    (dats m 0 c).after 2 t = tile (iblk m c 0 t) (iblk m c 1 t) := by dsimp only [dats]

/-- The row window's buffer holds row slab `i` at every point, fetched there or not (it is fetched only when `j = 0`;
    in between the index has not moved and the body left the slab in place). -/
theorem before_rows (c : Dev nD) (t : Fin cfg0.N) (d) : (dats m 0 c).before 0 t d = iblk m c 0 t :=
  ((dats m 0 c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)

/-- The column window's buffer holds row slab `j` at every point. -/
theorem before_cols (c : Dev nD) (t : Fin cfg0.N) (d) : (dats m 0 c).before 1 t d = iblk m c 1 t :=
  ((dats m 0 c).before_in_eq_fetched 1 rfl (fun _ => rfl) (fun _ _ _ => rfl)
      (fun t => by rw [after_cols]; unfold Dat.blockOf iblk; rw [A_eq]; try rfl) t d).trans
    (by unfold Dat.fetched Dat.blockOf iblk; rw [A_eq]; try rfl)

/-- What the body is called with at point `t`, the windows one by one, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their slabs, so `body_runs` applies; the invariant and what the
    core owes pass through unread. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [before_rows, before_cols]
  rw [show (dats m 0 c).Φ t.succ = (dats m 0 c).Φ t.castSucc from rfl,
    show (dats m 0 c).owesAt () t.succ = (dats m 0 c).owesAt () t.castSucc from rfl,
    after_rows, after_cols, after_tile]
  iintro ⟨HΦ, Hw, ⟨%d0, H0⟩, ⟨%d1, H1⟩, ⟨%d2, H2⟩⟩
  iapply (body_runs c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Hw]; · iexact Hw
  isplitl [H0]; · iexact H0
  isplitl [H1]; · iexact H1
  iexact H2

/-- The library's body obligation, at every point. -/
theorem body_obligation (c : Dev nD) :
    BodyObligation (dats (F := F) m 0 c) (defs₀ (F := F)) Variants.none () Set.univ := fun t => by
  rw [bigSep_W0, bigSep_W0]
  exact point_runs m c t

end Cert.KernelIdeal.Decode

end
-- ==== Proof.DecodeLaunch.lean ====
/-
  The launch of the decode region, and what the program ends with.

  The kernel is handed the embedding z through two input windows, so the launch cannot give each window's array to
  the pipeline at the full share as it does for distinct arrays. Instead z's buffer, held whole on entry, is dealt in
  two: the row window reads through the left half of the share, the column window through the right half, and the
  output array goes to its window whole. With that deal stated, the launch theorem for windows that share an array
  runs @main: every weakly fair execution terminates, the output array holds what the write-backs of the 144 points
  put there, the two input windows' array ends as it was found, and every other unscoped buffer (the six arguments
  among them) is as the region found it.
-/
import proofs.«120068_j8220567405314_1_alg».proof.Proof.DecodeData

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Behind the three windows there are two buffers: the embedding and the output. -/
theorem two_buffers : Finset.univ.image (Pipeline.arrRef spec0) = [main_v87, main_v88].toFinset := by decide

/-- A conjunction over the windows' buffers is the embedding's conjunct and the output's. -/
theorem over_buffers {M : Type} [URA M] (Ψ : Ref sig .tc → sProp M) :
    bigSep (Finset.univ.image (Pipeline.arrRef spec0)) Ψ = iprop(Ψ main_v87 ∗ Ψ main_v88) :=
  bigSep_eq_bigSepL_of_eq [main_v87, main_v88] two_buffers (by decide) Ψ

set_option maxHeartbeats 4000000 in
/-- The deal, for any entry contents `W` and any proof data whose arrays are `W`'s and whose two input windows hold the
    left and the right half of a share: the embedding's buffer, whole at `W`, split along its share between the two
    input windows; the output's buffer handed over whole. (The deal does not depend on what the buffers hold: it is stated for any contents `W`.) -/
theorem deal_of (c : Dev nD) (W : (b : Ref sig .tc) → Buf (Elt F) ((c.tc : Thread nD τ).loc b))
    (dat : Dat τ (Elt F) Unit ℕ (UR sig nD τ) ℕ cfg0 c)
    (hl : dat.q 0 = fullShare.left) (hr : dat.q 1 = fullShare.right)
    (hA : ∀ w, dat.A w = W (Pipeline.arrRef spec0 w)) :
    (Pipeline.arrBufs spec0 c W : sProp 𝕄) ⊢ dat.arrays (dat.arrAt · 0) := by
  have s0 : dat.share 0 = fullShare.left := (show dat.share 0 = dat.q 0 from rfl).trans hl
  have s1 : dat.share 1 = fullShare.right := (show dat.share 1 = dat.q 1 from rfl).trans hr
  have s2 : dat.share 2 = fullShare := rfl
  have a0 : dat.arrAt 0 0 = W main_v87 := hA 0
  have a1 : dat.arrAt 1 0 = W main_v87 := hA 1
  have a2 : dat.arrAt 2 0 = W main_v88 := hA 2
  unfold Pipeline.arrBufs Dat.arrays
  rw [over_buffers, bigSep_W0, (arr_whole0 0).set_eq_univ, (arr_whole0 2).set_eq_univ, s0, s1, s2]
  beta_reduce
  rw [a0, a1, a2]
  iintro ⟨Hz, Ho⟩
  ihave ⟨Hl, Hr⟩ := (pointsTo_share (PosShare.mem_left_op_right fullShare)).1 $$ Hz
  isplitl [Hl]; · iexact Hl
  isplitl [Hr]; · iexact Hr
  iexact Ho

theorem deal (c : Dev nD) :
    (Pipeline.arrBufs spec0 c (V m c) : sProp 𝕄) ⊢ (dats m 0 c).arrays ((dats m 0 c).arrAt · 0) :=
  deal_of c (V m c) (dats m 0 c) (by dsimp only [dats]) (by dsimp only [dats]) (A_eq m c)

/-- The invariant is the scoped rest at every point. -/
theorem inv_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

set_option maxHeartbeats 4000000 in
set_option backward.isDefEq.respectTransparency.types false in
/-- The run of @main, to the frame post of the pipeline library. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := entry_main m Variants.none) (hsplit := deal m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr [H]; · iempintro
      iexact H)
    (hin := fun c => by
      rw [inv_eq]
      iintro ⟨-, H⟩
      iexact H)
    (hout := fun c => by
      rw [inv_eq]
      iintro H
      isplitr [H]; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.KernelIdeal.Decode

end
-- ==== Proof.DecodeFrame.lean ====
/-
  The frame: the program terminates, faults nowhere, and leaves its six arguments as they were.

  The arguments are read by host operations only; none of the 126 host operations before the launch writes one of
  them, and the region stages only the embedding and the output. So each argument is among the buffers that bypass
  the region, ends as the region found it, and the region found it as launched.
-/
import proofs.«120068_j8220567405314_1_alg».proof.Proof.DecodeLaunch

set_option maxRecDepth 16384

noncomputable section

namespace Cert.KernelIdeal.Decode

open Idealize.ShloMosaic Idealize.ShloMosaic.TcCoe
open Idealize.SL.Sem
open Cert.KernelIdeal Cert.KernelIdeal.Gen

variable {F : FTy → Type} [FloatOps F]

variable (m : (ℓ : Loc nD τ sig) → Buf (Elt F) ℓ) (ρ : Dev nD → PrngReg)

/-- Every host operation writes its own result buffer, never the reference at hand. -/
local macro "no_host_write" : tactic => `(tactic| (
  refine List.forall_iff_forall_mem.mp ?_
  simp only [stretches, hostOps0, hostOps0_1, hostOps0_2, hostOps0_3, hostOps0_4, hostOps0_5, hostOps0_6,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem found_x (c : Dev nD) : V m c main_arg0 = m ((c : Thread nD τ).loc main_arg0) := untouched m c main_arg0 (by no_host_write)
theorem found_edges (c : Dev nD) : V m c main_arg1 = m ((c : Thread nD τ).loc main_arg1) := untouched m c main_arg1 (by no_host_write)
theorem found_W1 (c : Dev nD) : V m c main_arg2 = m ((c : Thread nD τ).loc main_arg2) := untouched m c main_arg2 (by no_host_write)
theorem found_b1 (c : Dev nD) : V m c main_arg3 = m ((c : Thread nD τ).loc main_arg3) := untouched m c main_arg3 (by no_host_write)
theorem found_W2 (c : Dev nD) : V m c main_arg4 = m ((c : Thread nD τ).loc main_arg4) := untouched m c main_arg4 (by no_host_write)
theorem found_b2 (c : Dev nD) : V m c main_arg5 = m ((c : Thread nD τ).loc main_arg5) := untouched m c main_arg5 (by no_host_write)

/-- An argument is unscoped and is neither the embedding nor the output: it bypasses the region. -/
theorem bypass (b : Ref sig .tc) (hs : b.isScoped = false) (h87 : main_v87 ≠ b) (h88 : main_v88 ≠ b) :
    b ∈ Pipeline.restRefs sig spec0 :=
  Pipeline.mem_restRefs_of b hs (fun w => by
    match w with
    | ⟨0, _⟩ => exact h87
    | ⟨1, _⟩ => exact h87
    | ⟨2, _⟩ => exact h88)

/-- The frame post read at the six arguments: each ends as launched. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (bypass main_arg0 rfl (by decide) (by decide))).trans (found_x m c),
   ((h c).2 main_arg1 (bypass main_arg1 rfl (by decide) (by decide))).trans (found_edges m c),
   ((h c).2 main_arg2 (bypass main_arg2 rfl (by decide) (by decide))).trans (found_W1 m c),
   ((h c).2 main_arg3 (bypass main_arg3 rfl (by decide) (by decide))).trans (found_b1 m c),
   ((h c).2 main_arg4 (bypass main_arg4 rfl (by decide) (by decide))).trans (found_W2 m c),
   ((h c).2 main_arg5 (bypass main_arg5 rfl (by decide) (by decide))).trans (found_b2 m c)⟩

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => kept m r h c) (run_main m ρ)

end Cert.KernelIdeal.Decode

end
-- ==== Proof.DecodeTile.lean ====
/-
  The output tile, entry by entry, over the extended reals.

  With exact arithmetic the casts to bf16 change nothing and the matrix unit's product into a zero accumulator is a
  plain sum, so entry (p, q) of the tile the body stores is the logistic function of the inner product of row p of
  the row slab with row q of the column slab, over the 64 features. The product contracts the SECOND axis of both
  operands: entry (p, q) reads the left operand at (p, k) and the right operand at (q, k).
-/
import proofs.«120068_j8220567405314_1_alg».proof.Proof.DecodeBody
import Idealize.ShloMosaic.Lib.Pipeline.Value
import Idealize.ShloMosaic.Lib.ValueIdx
import Idealize.ShloMosaic.PureOps.Ideal.Laws

set_option maxRecDepth 16384

noncomputable section

namespace Cert.KernelIdeal.Decode

open Idealize.ShloMosaic Idealize.ShloMosaic.TcCoe
open Idealize.SL.Sem
open Cert.KernelIdeal Cert.KernelIdeal.Gen
open ValueIdx

/-- The tile product's dimension record: both slabs contract their feature axis. -/
abbrev tileDot : DotDims S1024x64 S1024x64 S1024x1024 := dot_S1024x64_S1024x64_S1024x1024_1_1_0_0_n_n

theorem origin : (![0, 0] : Fin 2 → Nat) = fun _ => 0 := funext fun a => by fin_cases a <;> rfl

/-- The left operand is read at the entry's row … -/
theorem lhs_row (j : S1024x1024.Idx) (k : tileDot.contr.Idx) : (tileDot.lhsIdx j k 0).val = (j 0).val := by
  unfold DotDims.lhsIdx
  rw [dif_neg (show ¬(0 : Fin S1024x64.rank) ∈ tileDot.lhsBatch by decide),
    dif_pos (show (0 : Fin S1024x64.rank) ∈ tileDot.lhsNonContracting by decide)]
  rfl
/-- … and at the summed feature. -/
theorem lhs_feature (j : S1024x1024.Idx) (k : tileDot.contr.Idx) : (tileDot.lhsIdx j k 1).val = (k ⟨0, by decide⟩).val :=
  tileDot.lhsIdx_val_of_single rfl j k
/-- The right operand is read at the entry's COLUMN, as a row of its slab … -/
theorem rhs_row (j : S1024x1024.Idx) (k : tileDot.contr.Idx) : (tileDot.rhsIdx j k 0).val = (j 1).val := by
  unfold DotDims.rhsIdx
  rw [dif_neg (show ¬(0 : Fin S1024x64.rank) ∈ tileDot.rhsBatch by decide),
    dif_pos (show (0 : Fin S1024x64.rank) ∈ tileDot.rhsNonContracting by decide)]
  rfl
/-- … and at the summed feature. -/
theorem rhs_feature (j : S1024x1024.Idx) (k : tileDot.contr.Idx) : (tileDot.rhsIdx j k 1).val = (k ⟨0, by decide⟩).val :=
  tileDot.rhsIdx_val_of_single rfl j k

/-- Entry `j = (p, q)` of the tile: the logistic of the inner product of row `p` of `zi` and row `q` of `zj`. -/
theorem tile_at (zi zj : Vec Ideal S1024x64 .f32) (j : S1024x1024.Idx) :
    tile (F := Ideal) zi zj j
      = Ideal.logistic (∑ k : Fin 64, zi (ix2 (⟨(j 0).val, (j 0).isLt⟩ : Fin 1024) k) * zj (ix2 (⟨(j 1).val, (j 1).isLt⟩ : Fin 1024) k)) := by
  unfold tile
  rw [View.canon_unit_zero origin]
  simp only [View.ld_unit_zero (S := S1024x64) origin]
  unfold k0_pay1
  simp only [shapeCast_self]
  show Ideal.logistic (FloatOps.matmul tileDot none (truncf (F := Ideal) .bf16 zi bitsLt_bf16_f32) (truncf (F := Ideal) .bf16 zj bitsLt_bf16_f32)
      (constant (F := Ideal) S1024x1024 .f32 0x00000000#32) j) = _
  rw [Ideal.matmul_constant_zero_apply, ← Equiv.sum_comp (contrEquiv1 tileDot 64 rfl rfl).symm]
  refine congrArg Ideal.logistic (Finset.sum_congr rfl fun k _ => ?_)
  have hk := contrEquiv1_symm_val tileDot 64 rfl rfl k
  have el : tileDot.lhsIdx j ((contrEquiv1 tileDot 64 rfl rfl).symm k) = ix2 (⟨(j 0).val, (j 0).isLt⟩ : Fin 1024) k :=
    funext fun a => Fin.ext (by
      match a with
      | ⟨0, _⟩ => exact lhs_row _ _
      | ⟨1, _⟩ => exact (lhs_feature _ _).trans hk)
  have er : tileDot.rhsIdx j ((contrEquiv1 tileDot 64 rfl rfl).symm k) = ix2 (⟨(j 1).val, (j 1).isLt⟩ : Fin 1024) k :=
    funext fun a => Fin.ext (by
      match a with
      | ⟨0, _⟩ => exact rhs_row _ _
      | ⟨1, _⟩ => exact (rhs_feature _ _).trans hk)
  show zi (tileDot.lhsIdx j _) * zj (tileDot.rhsIdx j _) = _
  rw [el, er]

end Cert.KernelIdeal.Decode

end
-- ==== Proof.DecodeSpec.lean ====
/-
  What the decode computes, as one function of the node embedding.

  For an embedding z : [12288, 64] over the extended reals, the reconstructed adjacency is

      links z (u, v) = logistic (sum over the 64 features k of z[u, k] * z[v, k]),   logistic x = 1 / (1 + e^(-x)).

  The kernel computes it tile by tile from two slabs of z; the reference computes it as z times its transpose,
  negated, exponentiated, one added, and one divided by that. Both are this function of the same z.
-/
import Idealize.ShloMosaic.PureOps.Ideal
import Idealize.ShloMosaic.PureOps.Ideal.Laws
import Idealize.ShloMosaic.Lib.ValueIdx

noncomputable section

namespace Cert.Decode

open Idealize.ShloMosaic ValueIdx

/-- The reconstructed adjacency at the pair `i = (u, v)`. -/
def links (z : (⟨2, ![12288, 64]⟩ : Shape).Idx → EReal) : (⟨2, ![12288, 12288]⟩ : Shape).Idx → EReal := fun i =>
  Ideal.logistic (∑ k : Fin 64, z (ix2 (⟨(i 0).val, (i 0).isLt⟩ : Fin 12288) k) * z (ix2 (⟨(i 1).val, (i 1).isLt⟩ : Fin 12288) k))

end Cert.Decode

end
-- ==== Proof.DecodeArray.lean ====
/-
  From tiles to the whole output array.

  Grid point t = (i, j) writes back tile (i, j): rows 1024 i .. 1024 i + 1023 and columns 1024 j .. 1024 j + 1023 of
  the output. The row window's slab at that point is rows 1024 i .. of z, the column window's slab is rows
  1024 j .. of z, so entry (p, q) of the tile is the link score of nodes 1024 i + p and 1024 j + q: the tile is
  exactly that rectangle of `links z`. The 144 tiles cover the array (node pair (u, v) lies in tile
  (u / 1024, v / 1024)), so after the last write-back the output array is `links z`.
-/
import proofs.«120068_j8220567405314_1_alg».proof.Proof.DecodeData
import proofs.«120068_j8220567405314_1_alg».proof.Proof.DecodeTile
import proofs.«120068_j8220567405314_1_alg».proof.Proof.DecodeSpec

set_option maxRecDepth 16384

noncomputable section

namespace Cert.KernelIdeal.Decode

open Idealize.ShloMosaic Idealize.ShloMosaic.TcCoe
open Idealize.SL.Sem
open Idealize.ShloMosaic.Pipeline (Dat)
open Cert.KernelIdeal Cert.KernelIdeal.Gen
open ValueIdx Cert.Decode

/-- The printed index maps, decided over the 144 grid points: the row window follows the tile's row of tiles, the
    column window its column of tiles, both at feature block 0; the tile's block indices stay below 12. -/
theorem index_maps : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 11 ∧ win0_2.index t (1 : Fin 2) ≤ 11 :=
  (by decide +kernel : ∀ t : Fin grid0.N, _)

/-- Every tile (a, b) of the 12 x 12 tiling is some grid point's. -/
theorem every_tile : ∀ (a b : Fin 12), ∃ t : Fin cfg0.N, win0_2.index t = ![a.val, b.val] :=
  (by decide +kernel : ∀ (a b : Fin 12), ∃ t : Fin grid0.N, win0_2.index t = ![a.val, b.val])

set_option maxHeartbeats 2000000 in
/-- The tile computed from the two slabs of any embedding `z` at point `t` is block `t` of `links z`. -/
theorem tile_is_block (z : S12288x64.Idx → EReal) (t : Fin cfg0.N) :
    tile (F := Ideal) (((cfg0.win 0).blk t).view.read (Elt Ideal) z) (((cfg0.win 1).blk t).view.read (Elt Ideal) z)
      = ((cfg0.win 2).blk t).view.read (Elt Ideal) (links z) := by
  obtain ⟨e0, e1, e2, e3, -, -⟩ := index_maps t
  funext j
  rw [tile_at]
  show Ideal.logistic (∑ k : Fin 64,
        z (((cfg0.win 0).blk t).view.emb (ix2 (⟨(j 0).val, (j 0).isLt⟩ : Fin 1024) k))
          * z (((cfg0.win 1).blk t).view.emb (ix2 (⟨(j 1).val, (j 1).isLt⟩ : Fin 1024) k)))
      = links z (((cfg0.win 2).blk t).view.emb j)
  unfold links
  refine congrArg Ideal.logistic (Finset.sum_congr rfl fun k _ => ?_)
  have hj0 : (j 0).val < 1024 := (j 0).isLt
  have hj1 : (j 1).val < 1024 := (j 1).isLt
  have hk : k.val < 64 := k.isLt
  have hr : ((cfg0.win 0).blk t).view.emb (ix2 (⟨(j 0).val, (j 0).isLt⟩ : Fin 1024) k)
      = ix2 (⟨((((cfg0.win 2).blk t).view.emb j) 0).val, ((((cfg0.win 2).blk t).view.emb j) 0).isLt⟩ : Fin 12288) k := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 64 + 1 * k.val = k.val; omega
  have hc : ((cfg0.win 1).blk t).view.emb (ix2 (⟨(j 1).val, (j 1).isLt⟩ : Fin 1024) k)
      = ix2 (⟨((((cfg0.win 2).blk t).view.emb j) 1).val, ((((cfg0.win 2).blk t).view.emb j) 1).isLt⟩ : Fin 12288) k := by
    funext a; apply Fin.ext
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 64 + 1 * k.val = k.val; omega
  rw [hr, hc]

variable (m : (ℓ : Loc nD τ sig) → Buf (Elt Ideal) ℓ)

/-- What point `t` writes back is block `t` of `links` of the embedding the region found. -/
theorem written_back (c : Dev nD) (t : Fin cfg0.N) :
    (dats m 0 c).flushed 2 t = ((cfg0.win 2).blk t).view.read (Elt Ideal) (links (V m c main_v87)) := by
  show (cfg0.win 2).cut (grid0.coords t) ((dats m 0 c).after 2 t) = _
  rw [after_tile]
  exact tile_is_block (V m c main_v87) t

/-- A pair of nodes is in point `t`'s tile iff each coordinate is in the tile's range on its axis. -/
theorem in_tile (t : Fin cfg0.N) (i : S12288x12288.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v88).slice (win0_2.rect t)).set ↔ _
  rw [View.set_slice_whole, Rect.mem_set_unit]
  exact Iff.rfl

/-- The tiles cover the array: pair (u, v) lies in tile (u / 1024, v / 1024). -/
theorem tiles_cover (i : S12288x12288.Idx) :
    ∃ t : Fin cfg0.N, (cfg0.win 2).flush t = true ∧ i ∈ ((cfg0.win 2).blk t).view.set := by
  have hu : (i 0).val < 12288 := (i 0).isLt
  have hv : (i 1).val < 12288 := (i 1).isLt
  obtain ⟨t, ht⟩ := every_tile ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [in_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- After the last write-back the output array is `links` of the embedding the region found. -/
theorem output_is_links (c : Dev nD) : (dats m 0 c).arrAt 2 cfg0.N = links (V m c main_v87) :=
  (dats m 0 c).arrAt_eq_of_cover 2 (links (V m c main_v87)) (fun t _ => written_back m c t) tiles_cover

end Cert.KernelIdeal.Decode

end
-- ==== Proof.GcnEmbed.lean ====
/-
  The node embedding both programs compute on the host: two GCN layers.

  With self loops added, every node `v` has degree deg(v) = #{edges into v} + 1, an edge (s, t) carries the weight
  deg(s)^(-1/2) * deg(t)^(-1/2) (zero where a degree is not positive), and one layer sends features `h` to

      out[t] = sum over edges (s, t) of weight(s, t) * (h @ W)[s]  +  b.

  The embedding is  z = layer(relu(layer(x, W1, b1)), W2, b2) : [12288, 64].  Everything here is a pure function of
  the six argument arrays, written in the printed programs' own operations so that either program's host prefix
  can be recognised as this function: a gather by source, a scatter-add by target, jnp's wrap of a negative index.
  The decode is a function of the embedding alone: its value proof takes the embedding as one array `z`.
-/
import proofs.«120068_j8220567405314_1_alg».proof.KernelIdeal
import proofs.«120068_j8220567405314_1_alg».proof.Proof.Gen.KernelIdeal

noncomputable section

namespace Cert.KernelIdeal.Gcn

open Idealize.ShloMosaic Cert.KernelIdeal Cert.KernelIdeal.Facts₀

variable {F : FTy → Type} [FloatOps F]

/-- The edge list [2, E] as the programs hold it. -/
abbrev EdgeList (F : FTy → Type) : Type := (⟨S2x393216, .i32⟩ : BufTy).Contents (Elt F)

/-- One row of the edge list followed by one self loop per node: the 405504 = 393216 + 12288 endpoints. -/
def endpoints (row : Fin 2 → Nat) (hrow : S2x393216.Slices row S1x393216) (ei : EdgeList F) : IVec S405504 32 :=
  concatenate S405504 0
    [⟨S393216, shapeCast S393216 (extractStridedSlice S1x393216 row ei hrow) shapeCasts_S1x393216_S393216⟩,
     ⟨S12288, iotaInDim S12288 32 0⟩] concatenates_S393216_S12288_S405504_d0

/-- Where each edge starts, and where it ends. -/
def sources (ei : EdgeList F) : IVec S405504 32 := endpoints ![0, 0] slices_S2x393216_S1x393216_0_0 ei
def targets (ei : EdgeList F) : IVec S405504 32 := endpoints ![1, 0] slices_S2x393216_S1x393216_1_0 ei

/-- jnp's reading of an index: one below zero counts from the end of the 12288 nodes. -/
def wrap (idx : IVec S405504 32) : IVec S405504 32 :=
  select (cmpi .slt idx (broadcastInDim S405504 ![] bcast_S_S405504 (constantI S_ 32 0#32)))
    (addi idx (broadcastInDim S405504 ![] bcast_S_S405504 (constantI S_ 32 12288#32))) idx

/-- A list of node ids as the [E', 1] index operand of a gather or scatter. -/
def asColumn {α : Type} (v : S405504.Idx → α) : S405504x1.Idx → α := broadcastInDim S405504x1 ![0] bcast_S405504_S405504x1_0 v

/-- deg(v): one for every edge (self loops included) that ends at `v`. -/
def deg (ei : EdgeList F) : FVec F S12288 .f32 :=
  Host.scatterAdd scatter_S12288_S405504x1_S405504_n_0_0_1
    (broadcastInDim S12288 ![] bcast_S_S12288 (constant S_ .f32 0x00000000#32))
    (asColumn (targets ei))
    (broadcastInDim S405504 ![] bcast_S_S405504 (constant S_ .f32 0x3F800000#32))

/-- deg(v)^(-1/2) where the degree is positive, zero elsewhere. -/
def dinv (ei : EdgeList F) : FVec F S12288 .f32 :=
  select (cmpf (F := F) .ogt (deg ei) (broadcastInDim S12288 ![] bcast_S_S12288 (constant S_ .f32 0x00000000#32)))
    (Host.rsqrt (deg ei))
    (broadcastInDim S12288 ![] bcast_S_S12288 (constant S_ .f32 0x00000000#32))

/-- The weight of each edge: dinv at its source times dinv at its target. -/
def weight (ei : EdgeList F) : FVec F S405504 .f32 :=
  mulf (Host.gather gather_S12288_S405504x1_S405504_n_0_n_n_0_1_1 (dinv ei) (asColumn (wrap (sources ei))))
    (Host.gather gather_S12288_S405504x1_S405504_n_0_n_n_0_1_1 (dinv ei) (asColumn (wrap (targets ei))))

/-- The first layer, 256 features in and out. -/
def layer1 (x : FVec F S12288x256 .f32) (W : FVec F S256x256 .f32) (b : FVec F S256 .f32) (ei : EdgeList F) : FVec F S12288x256 .f32 :=
  addf
    (Host.scatterAdd scatter_S12288x256_S405504x1_S405504x256_1_0_0_1
      (broadcastInDim S12288x256 ![] bcast_S_S12288x256 (constant S_ .f32 0x00000000#32))
      (asColumn (targets ei))
      (mulf
        (Host.gather gather_S12288x256_S405504x1_S405504x256_1_0_n_n_0_1_1256
          (Host.dotGeneral dot_S12288x256_S256x256_S12288x256_1_0_0_1_n_n none x W) (asColumn (wrap (sources ei))))
        (broadcastInDim S405504x256 ![0, 1] bcast_S405504x1_S405504x256_0_1 (asColumn (weight ei)))))
    (broadcastInDim S12288x256 ![0, 1] bcast_S1x256_S12288x256_0_1 (broadcastInDim S1x256 ![1] bcast_S256_S1x256_1 b))

/-- The second layer, 256 features in, 64 out. -/
def layer2 (h : FVec F S12288x256 .f32) (W : FVec F S256x64 .f32) (b : FVec F S64 .f32) (ei : EdgeList F) : FVec F S12288x64 .f32 :=
  addf
    (Host.scatterAdd scatter_S12288x64_S405504x1_S405504x64_1_0_0_1
      (broadcastInDim S12288x64 ![] bcast_S_S12288x64 (constant S_ .f32 0x00000000#32))
      (asColumn (targets ei))
      (mulf
        (Host.gather gather_S12288x64_S405504x1_S405504x64_1_0_n_n_0_1_164
          (Host.dotGeneral dot_S12288x256_S256x64_S12288x64_1_0_0_1_n_n none h W) (asColumn (wrap (sources ei))))
        (broadcastInDim S405504x64 ![0, 1] bcast_S405504x1_S405504x64_0_1 (asColumn (weight ei)))))
    (broadcastInDim S12288x64 ![0, 1] bcast_S1x64_S12288x64_0_1 (broadcastInDim S1x64 ![1] bcast_S64_S1x64_1 b))

/-- The embedding: a layer, a relu, a layer. -/
def embed (x : FVec F S12288x256 .f32) (ei : EdgeList F) (W1 : FVec F S256x256 .f32) (b1 : FVec F S256 .f32)
    (W2 : FVec F S256x64 .f32) (b2 : FVec F S64 .f32) : FVec F S12288x64 .f32 :=
  layer2 (maximumf (layer1 x W1 b1 ei) (broadcastInDim S12288x256 ![] bcast_S_S12288x256 (constant S_ .f32 0x00000000#32))) W2 b2 ei

end Cert.KernelIdeal.Gcn

end
-- ==== Proof.DecodeEmbedding.lean ====
/-
  The region finds the GCN embedding in `main_v87`.

  The 126 host operations before the launch are the two GCN layers; run from the launch memory they leave, in the
  buffer both input windows stage, exactly `Gcn.embed` of the six argument arrays.
-/
import proofs.«120068_j8220567405314_1_alg».proof.Proof.DecodeEntry
import proofs.«120068_j8220567405314_1_alg».proof.Proof.GcnEmbed
import Idealize.ShloMosaic.Lib.StableHlo.Run

noncomputable section

namespace Cert.KernelIdeal.Decode

open Idealize.ShloMosaic Idealize.ShloMosaic.TcCoe Idealize.ShloMosaic.StableHlo
open Idealize.SL.Sem
open Cert.KernelIdeal Cert.KernelIdeal.Gen

variable {F : FTy → Type} [FloatOps F]

variable (m : (ℓ : Loc nD τ sig) → Buf (Elt F) ℓ)

set_option maxRecDepth 8192 in
set_option maxHeartbeats 50400000 in
theorem embedding_found (c : Dev nD) :
    (V m c main_v87 : S12288x64.Idx → Elt F .f32)
      = Gcn.embed (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  dsimp only [V]
  simp only [stretches, hostOps0, hostOps0_1, hostOps0_2, hostOps0_3, hostOps0_4, hostOps0_5, hostOps0_6,
    List.flatten_cons, List.flatten_nil, List.append_nil, List.cons_append, List.nil_append]
  after_results_simp <;> rfl

end Cert.KernelIdeal.Decode

end
-- ==== Proof.DecodeValue.lean ====
/-
  The idealized kernel's run, read: the output is the link score of every pair of embedded nodes.

  The region finds the GCN embedding z of the arguments in the buffer its two input windows stage, and after the
  last write-back the output array is `links z`; the arguments end as launched.
-/
import proofs.«120068_j8220567405314_1_alg».proof.Proof.DecodeFrame
import proofs.«120068_j8220567405314_1_alg».proof.Proof.DecodeArray
import proofs.«120068_j8220567405314_1_alg».proof.Proof.DecodeEmbedding

noncomputable section

namespace Cert.KernelIdeal.Decode

open Idealize.ShloMosaic Idealize.ShloMosaic.TcCoe
open Idealize.SL.Sem
open Cert.KernelIdeal Cert.KernelIdeal.Gen Cert.Decode

variable (m : (ℓ : Loc nD τ sig) → Buf (Elt Ideal) ℓ) (ρ : Dev nD → PrngReg)

/-- The embedding of the launch memory's arguments on core `c`. -/
def embedded (c : Dev nD) : S12288x64.Idx → EReal :=
  Gcn.embed (F := Ideal) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

theorem run_links : θ_run defs (onTc (τ := τ) (main (F := Ideal))) ⟨m, fun _ => 0, ρ⟩ (fun r => ∀ c : Dev nD,
      r.2.mem ((c.tc : Thread nD τ).loc main_v88) = links (embedded m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(((h c).1 2).trans (output_is_links m c)).trans (congrArg links (embedding_found m c)), kept m r h c⟩)
    (run_main m ρ)

end Cert.KernelIdeal.Decode

end
-- ==== Proof.ReferenceTail.lean ====
/-
  The reference's decode: z times its transpose, then 1 / (1 + e^(-s)) entry by entry.

  Entry (u, v) of z zT is the sum over the 64 features of z[u, k] * zT[k, v] = z[u, k] * z[v, k], and over the extended
  reals 1 / (1 + e^(-s)) is the logistic function at every s, the two infinities included (it is its definition). So
  the reference's last operations, applied to an embedding z, give `links z`.
-/
import proofs.«120068_j8220567405314_1_alg».proof.ReferenceIdeal
import proofs.«120068_j8220567405314_1_alg».proof.Proof.Gen.ReferenceIdeal
import proofs.«120068_j8220567405314_1_alg».proof.Proof.DecodeSpec
import Idealize.ShloMosaic.Lib.Pipeline.Value
import Idealize.ShloMosaic.Lib.ValueIdx
import Idealize.ShloMosaic.PureOps.Ideal.Laws

set_option maxRecDepth 16384

noncomputable section

namespace Cert.ReferenceIdeal.Decode

open Idealize.ShloMosaic Cert.ReferenceIdeal Cert.ReferenceIdeal.Facts₀
open ValueIdx Cert.Decode

variable {F : FTy → Type} [FloatOps F]

/-- The reference's operations after the embedding, as one function of it. -/
def scores (z : FVec F S12288x64 .f32) : FVec F S12288x12288 .f32 :=
  Host.divf (broadcastInDim S12288x12288 ![] bcast_S_S12288x12288 (constant S_ .f32 0x3F800000#32))
    (addf (broadcastInDim S12288x12288 ![] bcast_S_S12288x12288 (constant S_ .f32 0x3F800000#32))
      (Host.exp (Host.negf (Host.dotGeneral dot_S12288x64_S64x12288_S12288x12288_1_0_0_1_n_n none z
        (transpose S64x12288 [1, 0] z transposes_S12288x64_S64x12288_1_0)))))

/-- The product's dimension record: rows of z against columns of its transpose. -/
abbrev gram : DotDims S12288x64 S64x12288 S12288x12288 := dot_S12288x64_S64x12288_S12288x12288_1_0_0_1_n_n

theorem one_word : Ideal.ofBits .f32 0x3F800000#32 = 1 := by
  simp [Ideal.ofBits, Ideal.ieee, -EReal.coe_mul]; norm_num

theorem lhs_node (i : S12288x12288.Idx) (q : gram.contr.Idx) : (gram.lhsIdx i q 0).val = (i 0).val := by
  unfold DotDims.lhsIdx
  rw [dif_neg (show ¬(0 : Fin S12288x64.rank) ∈ gram.lhsBatch by decide),
    dif_pos (show (0 : Fin S12288x64.rank) ∈ gram.lhsNonContracting by decide)]
  rfl
theorem lhs_feature (i : S12288x12288.Idx) (q : gram.contr.Idx) : (gram.lhsIdx i q 1).val = (q ⟨0, by decide⟩).val :=
  gram.lhsIdx_val_of_single rfl i q
theorem rhs_feature (i : S12288x12288.Idx) (q : gram.contr.Idx) : (gram.rhsIdx i q 0).val = (q ⟨0, by decide⟩).val :=
  gram.rhsIdx_val_of_single rfl i q
theorem rhs_node (i : S12288x12288.Idx) (q : gram.contr.Idx) : (gram.rhsIdx i q 1).val = (i 1).val := by
  unfold DotDims.rhsIdx
  rw [dif_neg (show ¬(1 : Fin S64x12288.rank) ∈ gram.rhsBatch by decide),
    dif_pos (show (1 : Fin S64x12288.rank) ∈ gram.rhsNonContracting by decide)]
  rfl

/-- Entry (u, v) of z zT is the inner product of rows u and v of z. -/
theorem gram_at (z : FVec Ideal S12288x64 .f32) (i : S12288x12288.Idx) :
    Host.dotGeneral gram none z (transpose S64x12288 [1, 0] z transposes_S12288x64_S64x12288_1_0) i
      = ∑ k : Fin 64, z (ix2 (⟨(i 0).val, (i 0).isLt⟩ : Fin 12288) k) * z (ix2 (⟨(i 1).val, (i 1).isLt⟩ : Fin 12288) k) := by
  simp only [Host.dotGeneral]
  rw [Ideal.dotGeneral_apply, ← Equiv.sum_comp (contrEquiv1 gram 64 rfl rfl).symm]
  refine Finset.sum_congr rfl fun k _ => ?_
  have hk := contrEquiv1_symm_val gram 64 rfl rfl k
  have el : gram.lhsIdx i ((contrEquiv1 gram 64 rfl rfl).symm k) = ix2 (⟨(i 0).val, (i 0).isLt⟩ : Fin 12288) k :=
    funext fun a => Fin.ext (by
      match a with
      | ⟨0, _⟩ => exact lhs_node _ _
      | ⟨1, _⟩ => exact (lhs_feature _ _).trans hk)
  have er : transpose S64x12288 [1, 0] z transposes_S12288x64_S64x12288_1_0 (gram.rhsIdx i ((contrEquiv1 gram 64 rfl rfl).symm k))
      = z (ix2 (⟨(i 1).val, (i 1).isLt⟩ : Fin 12288) k) :=
    transpose_apply [1, 0] z transposes_S12288x64_S64x12288_1_0 _ _ (fun b => by
      match b with
      | ⟨0, _⟩ => exact ((rhs_feature _ _).trans hk).symm
      | ⟨1, _⟩ => exact (rhs_node _ _).symm)
  rw [el, er]

/-- Over the extended reals the reference's decode of an embedding is `links` of it. -/
theorem scores_eq_links (z : FVec Ideal S12288x64 .f32) : scores (F := Ideal) z = links z := by
  funext i
  show Ideal.div (Ideal.ofBits .f32 0x3F800000#32)
      (Ideal.ofBits .f32 0x3F800000#32
        + Ideal.exp (-(Host.dotGeneral gram none z (transpose S64x12288 [1, 0] z transposes_S12288x64_S64x12288_1_0) i)))
    = Ideal.logistic (∑ k : Fin 64, z (ix2 (⟨(i 0).val, (i 0).isLt⟩ : Fin 12288) k) * z (ix2 (⟨(i 1).val, (i 1).isLt⟩ : Fin 12288) k))
  rw [one_word, gram_at]
  rfl

end Cert.ReferenceIdeal.Decode

end
-- ==== Proof.ReferenceEmbedding.lean ====
/-
  The reference's result is its decode of the same embedding.

  The reference's host program is the same two GCN layers followed by its decode. Its run ends with the result
  buffer at the operations' composed term of the arguments; that term is `scores` applied to `Gcn.embed` of the six
  argument arrays: the layers' operations are the kernel program's, operation for operation.
-/
import proofs.«120068_j8220567405314_1_alg».proof.Proof.ReferenceRunPatched
import proofs.«120068_j8220567405314_1_alg».proof.Proof.ReferenceTail
import proofs.«120068_j8220567405314_1_alg».proof.Proof.GcnEmbed

noncomputable section

namespace Cert.ReferenceIdeal.Decode

open Idealize.ShloMosaic Idealize.ShloMosaic.TcCoe
open Idealize.SL.Sem
open Cert.ReferenceIdeal

variable {F : FTy → Type} [FloatOps F]

set_option maxRecDepth 8192 in
set_option maxHeartbeats 50400000 in
theorem result_is_scores (m : (ℓ : Loc nD τ sig) → Buf (Elt F) ℓ) (c : Dev nD) :
    Cert.ReferenceIdeal.ValueP.res_main_v95 m c
      = scores (Cert.KernelIdeal.Gcn.embed (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) := by
  unfold Cert.ReferenceIdeal.ValueP.res_main_v95
  rfl

end Cert.ReferenceIdeal.Decode

end
-- ==== Proof.lean ====
/-
  GCN link prediction: the tiled decode kernel against the plain reference, over the extended reals.

  Both programs embed the 12288 nodes by the same two GCN layers on the host (self loops added, symmetric
  normalisation, gather by source and scatter-add by target), giving z : [12288, 64]. They differ only in the decode.
  The kernel walks a 12 x 12 grid of 1024 x 1024 tiles; at tile (i, j) it multiplies row slab i of z against row slab
  j of z over the 64 features into a zero accumulator and applies the logistic function. The reference forms z zT and
  then 1 / (1 + e^(-s)) entry by entry. With exact arithmetic the casts to bf16 are the identity, the tile's product
  is a plain sum, and 1 / (1 + e^(-s)) is the logistic function at every extended real, so both results are

      links z (u, v) = logistic (sum over k of z[u, k] * z[v, k]),

  of the same z. No law used needs the inputs finite (only re-indexing of a finite sum), so the precondition is never
  opened.

  The frames. The kernel reads z through two input windows, so the launch deals z's buffer between them along its
  share (left half, right half) and hands the output to its window whole; the body reads two slabs and overwrites the
  tile, keeping nothing between points. No host operation writes an argument and the region stages none, so the six
  arguments end as launched; that argument is the same at the word level and at the ideal level. The reference has
  no kernel: its frame is its run with the result dropped. The ideal pass rewrote nothing, so `preserves` is `True`.
-/
import proofs.«120068_j8220567405314_1_alg».proof.Defs
import proofs.«120068_j8220567405314_1_alg».proof.Proof.Gen.Kernel
import proofs.«120068_j8220567405314_1_alg».proof.Proof.Gen.KernelIdeal
import proofs.«120068_j8220567405314_1_alg».proof.Proof.Gen.ReferenceIdeal
import proofs.«120068_j8220567405314_1_alg».proof.Proof.Gen.Pre_finite_inputs
import proofs.«120068_j8220567405314_1_alg».proof.Proof.WordDecodeFrame
import proofs.«120068_j8220567405314_1_alg».proof.Proof.DecodeValue
import proofs.«120068_j8220567405314_1_alg».proof.Proof.ReferenceEmbedding

noncomputable section

namespace Cert.Proof

open Idealize.ShloMosaic Idealize.SL.Sem Cert.Decode

/-- The word-level kernel program runs and leaves its arguments unchanged. -/
theorem frame_word : Cert.frame_Kernel := fun m ρ _ => Cert.Kernel.Decode.frame m ρ

/-- So does the idealized kernel program. -/
theorem frame_ideal : Cert.frame_KernelIdeal := fun m ρ _ => Cert.KernelIdeal.Decode.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both idealized programs end with `links` of the embedding of the (agreeing) arguments. -/
theorem same_links : Cert.algebraic_KernelIdeal_ReferenceIdeal := by
  intro m ρ m' ρ' _ hagree
  refine ⟨fun c => links (Cert.KernelIdeal.Decode.embedded m c), Cert.KernelIdeal.Decode.run_links m ρ, ?_⟩
  refine (θ_run Cert.ReferenceIdeal.defs _ _).mono (fun _ h c => ⟨?_, (h c).2⟩)
    (Cert.ReferenceIdeal.ValueP.run (F := Ideal) m' ρ')
  rw [(h c).1, Cert.ReferenceIdeal.Decode.result_is_scores, Cert.ReferenceIdeal.Decode.scores_eq_links,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_word, frame_ideal, frame_reference, trivial, same_links⟩

end Cert.Proof

end
